-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S300000x3 : Shape := ⟨2, ![300000, 3]⟩
abbrev S512x384 : Shape := ⟨2, ![512, 384]⟩
abbrev S512 : Shape := ⟨1, ![512]⟩
abbrev S64x512 : Shape := ⟨2, ![64, 512]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x384 : S_.BroadcastsInDim S512x384 (![] : Fin 0 → Fin S512x384.rank)
  reducesTo_S512x384_S_d0_1 : S512x384.ReducesTo [0, 1] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64 .f32) (main_arg6 : FVec F S128x64 .f32) (main_arg7 : FVec F S128 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S300000x3 32) (main_arg2 : FVec F S512x384 .f32) (main_arg3 : FVec F S512 .f32) (main_arg4 : FVec F S64x512 .f32) (main_arg5 : FVec F S64 .f32) (main_arg6 : FVec F S128x64 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x384 .f32 := Host.absf main_arg2
  let main_cst_0 : FVec F S_ .f32 := constant S_ .f32 0x7F800000#32
  let main_v5 : FVec F S512x384 .f32 := broadcastInDim S512x384 ![] bcast_S_S512x384 main_cst_0
  let main_v6 : IVec S512x384 1 := cmpf .olt main_v4 main_v5
  let main_c_1 : IVec S_ 1 := constantI S_ 1 1#1
  let main_v7 : IVec S_ 1 := (fun x v => Host.reduce IntOp.andi x v reducesTo_S512x384_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S64x512 .f32 := Host.absf main_arg4
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg5 main_arg6 main_arg7 main_v13 main_v16
-- ==== Kernel.lean ====
abbrev S100000x128 : Shape := ⟨2, ![100000, 128]⟩
abbrev S300000x3 : Shape := ⟨2, ![300000, 3]⟩
abbrev S512x384 : Shape := ⟨2, ![512, 384]⟩
abbrev S512 : Shape := ⟨1, ![512]⟩
abbrev S64x512 : Shape := ⟨2, ![64, 512]⟩
abbrev S64 : Shape := ⟨1, ![64]⟩
abbrev S128x64 : Shape := ⟨2, ![128, 64]⟩
abbrev S128 : Shape := ⟨1, ![128]⟩
abbrev S300000x1 : Shape := ⟨2, ![300000, 1]⟩
abbrev S300000 : Shape := ⟨1, ![300000]⟩
abbrev S_ : Shape := ⟨0, ![]⟩
abbrev S300000x128 : Shape := ⟨2, ![300000, 128]⟩
abbrev S300000x384 : Shape := ⟨2, ![300000, 384]⟩
abbrev S303104x384 : Shape := ⟨2, ![303104, 384]⟩
abbrev S384x512 : Shape := ⟨2, ![384, 512]⟩
abbrev S512x64 : Shape := ⟨2, ![512, 64]⟩
abbrev S64x128 : Shape := ⟨2, ![64, 128]⟩
abbrev S1x512 : Shape := ⟨2, ![1, 512]⟩
abbrev S1x64 : Shape := ⟨2, ![1, 64]⟩
abbrev S1x128 : Shape := ⟨2, ![1, 128]⟩
abbrev S303104x128 : Shape := ⟨2, ![303104, 128]⟩
abbrev S4096x384 : Shape := ⟨2, ![4096, 384]⟩
abbrev S4096x128 : Shape := ⟨2, ![4096, 128]⟩
abbrev S4096x512 : Shape := ⟨2, ![4096, 512]⟩
abbrev S4096x64 : Shape := ⟨2, ![4096, 64]⟩
abbrev S100000 : Shape := ⟨1, ![100000]⟩
abbrev S100000x1 : Shape := ⟨2, ![100000, 1]⟩

abbrev nBuf : Space → Nat
  | .hbm => 79
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S300000x3, .i32⟩
  | .hbm, ⟨2, _⟩ => ⟨S512x384, .f32⟩
  | .hbm, ⟨3, _⟩ => ⟨S512, .f32⟩
  | .hbm, ⟨4, _⟩ => ⟨S64x512, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S300000x1, .i32⟩
  | .hbm, ⟨9, _⟩ => ⟨S300000, .i32⟩
  | .hbm, ⟨10, _⟩ => ⟨S300000x1, .i32⟩
  | .hbm, ⟨11, _⟩ => ⟨S300000, .i32⟩
  | .hbm, ⟨12, _⟩ => ⟨S300000x1, .i32⟩
  | .hbm, ⟨13, _⟩ => ⟨S300000, .i32⟩
  | .hbm, ⟨14, _⟩ => ⟨S100000x128, .bf16⟩
  | .hbm, ⟨15, _⟩ => ⟨S_, .i32⟩
  | .hbm, ⟨16, _⟩ => ⟨S300000, .i32⟩
  | .hbm, ⟨17, _⟩ => ⟨S300000, .i1⟩
  | .hbm, ⟨18, _⟩ => ⟨S_, .i32⟩
  | .hbm, ⟨19, _⟩ => ⟨S300000, .i32⟩
  | .hbm, ⟨20, _⟩ => ⟨S300000, .i32⟩
  | .hbm, ⟨21, _⟩ => ⟨S300000, .i32⟩
  | .hbm, ⟨22, _⟩ => ⟨S300000x1, .i32⟩
  | .hbm, ⟨23, _⟩ => ⟨S300000x128, .bf16⟩
  | .hbm, ⟨24, _⟩ => ⟨S_, .i32⟩
  | .hbm, ⟨25, _⟩ => ⟨S300000, .i32⟩
  | .hbm, ⟨26, _⟩ => ⟨S300000, .i1⟩
  | .hbm, ⟨27, _⟩ => ⟨S_, .i32⟩
  | .hbm, ⟨28, _⟩ => ⟨S300000, .i32⟩
  | .hbm, ⟨29, _⟩ => ⟨S300000, .i32⟩
  | .hbm, ⟨30, _⟩ => ⟨S300000, .i32⟩
  | .hbm, ⟨31, _⟩ => ⟨S300000x1, .i32⟩
  | .hbm, ⟨32, _⟩ => ⟨S300000x128, .bf16⟩
  | .hbm, ⟨33, _⟩ => ⟨S_, .i32⟩
  | .hbm, ⟨34, _⟩ => ⟨S300000, .i32⟩
  | .hbm, ⟨35, _⟩ => ⟨S300000, .i1⟩
  | .hbm, ⟨36, _⟩ => ⟨S_, .i32⟩
  | .hbm, ⟨37, _⟩ => ⟨S300000, .i32⟩
  | .hbm, ⟨38, _⟩ => ⟨S300000, .i32⟩
  | .hbm, ⟨39, _⟩ => ⟨S300000, .i32⟩
  | .hbm, ⟨40, _⟩ => ⟨S300000x1, .i32⟩
  | .hbm, ⟨41, _⟩ => ⟨S300000x128, .bf16⟩
  | .hbm, ⟨42, _⟩ => ⟨S300000x384, .bf16⟩
  | .hbm, ⟨43, _⟩ => ⟨S_, .i32⟩
  | .hbm, ⟨44, _⟩ => ⟨S_, .bf16⟩
  | .hbm, ⟨45, _⟩ => ⟨S303104x384, .bf16⟩
  | .hbm, ⟨46, _⟩ => ⟨S384x512, .f32⟩
  | .hbm, ⟨47, _⟩ => ⟨S384x512, .bf16⟩
  | .hbm, ⟨48, _⟩ => ⟨S512x64, .f32⟩
  | .hbm, ⟨49, _⟩ => ⟨S512x64, .bf16⟩
  | .hbm, ⟨50, _⟩ => ⟨S64x128, .f32⟩
  | .hbm, ⟨51, _⟩ => ⟨S64x128, .bf16⟩
  | .hbm, ⟨52, _⟩ => ⟨S1x512, .f32⟩
  | .hbm, ⟨53, _⟩ => ⟨S1x64, .f32⟩
  | .hbm, ⟨54, _⟩ => ⟨S1x128, .f32⟩
  | .hbm, ⟨55, _⟩ => ⟨S303104x128, .f32⟩
  | .hbm, ⟨56, _⟩ => ⟨S300000x128, .f32⟩
  | .hbm, ⟨57, _⟩ => ⟨S_, .f32⟩
  | .hbm, ⟨58, _⟩ => ⟨S100000x128, .f32⟩
  | .hbm, ⟨59, _⟩ => ⟨S300000x1, .i32⟩
  | .hbm, ⟨60, _⟩ => ⟨S100000x128, .f32⟩
  | .hbm, ⟨61, _⟩ => ⟨S_, .f32⟩
  | .hbm, ⟨62, _⟩ => ⟨S300000, .f32⟩
  | .hbm, ⟨63, _⟩ => ⟨S_, .f32⟩
  | .hbm, ⟨64, _⟩ => ⟨S100000, .f32⟩
  | .hbm, ⟨65, _⟩ => ⟨S300000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .i1⟩
  | .hbm, ⟨77, _⟩ => ⟨S100000x128, .i1⟩
  | .hbm, ⟨78, _⟩ => ⟨S100000x128, .f32⟩
  | .local _ .vmem, ⟨0, _⟩ => ⟨S4096x384, .bf16⟩
  | .local _ .vmem, ⟨1, _⟩ => ⟨S4096x384, .bf16⟩
  | .local _ .vmem, ⟨2, _⟩ => ⟨S384x512, .bf16⟩
  | .local _ .vmem, ⟨3, _⟩ => ⟨S1x512, .f32⟩
  | .local _ .vmem, ⟨4, _⟩ => ⟨S512x64, .bf16⟩
  | .local _ .vmem, ⟨5, _⟩ => ⟨S1x64, .f32⟩
  | .local _ .vmem, ⟨6, _⟩ => ⟨S64x128, .bf16⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_call1_v0 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S300000x3_S300000x1_0_0 : S300000x3.Slices ![0, 0] S300000x1
  shapeCasts_S300000x1_S300000 : S300000x1.ShapeCasts S300000
  slices_S300000x3_S300000x1_0_1 : S300000x3.Slices ![0, 1] S300000x1
  slices_S300000x3_S300000x1_0_2 : S300000x3.Slices ![0, 2] S300000x1
  bitsLt_bf16_f32 : FTy.bits .bf16 < FTy.bits .f32
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x128_S300000x384_d1 : Shape.Concatenates [S300000x128, S300000x128, S300000x128] S300000x384 1
  pads_S300000x384_S303104x384_031040_000 : S300000x384.Pads (![0, 0] : Fin 2 → Nat) ![3104, 0] ![0, 0] S303104x384
  h_S_ : 0 < S_.numel
  transposes_S512x384_S384x512_1_0 : S512x384.Transposes [1, 0] S384x512
  transposes_S64x512_S512x64_1_0 : S64x512.Transposes [1, 0] S512x64
  transposes_S128x64_S64x128_1_0 : S128x64.Transposes [1, 0] S64x128
  shapeCasts_S512_S1x512 : S512.ShapeCasts S1x512
  shapeCasts_S64_S1x64 : S64.ShapeCasts S1x64
  shapeCasts_S128_S1x128 : S128.ShapeCasts S1x128
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  slices_S303104x128_S300000x128_0_0 : S303104x128.Slices ![0, 0] S300000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  gather_S100000x128_S300000x1_S300000x128_1_0_n_n_0_1_1128_wf : GatherDims.WF S100000x128 S300000x1 S300000x128 [1] [0] [] [0] [] 1 ![1, 128]
  dot_S4096x384_S384x512_S4096x512_1_0_0_1_n_n_wf : DotDims.WF S4096x384 S384x512 S4096x512 [1] [0] [0] [1] [] []
  dot_S4096x512_S512x64_S4096x64_1_0_0_1_n_n_wf : DotDims.WF S4096x512 S512x64 S4096x64 [1] [0] [0] [1] [] []
  dot_S4096x64_S64x128_S4096x128_1_0_0_1_n_n_wf : DotDims.WF S4096x64 S64x128 S4096x128 [1] [0] [0] [1] [] []
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x384.size a ≤ S303104x384.size a
  hwx0_0 : ∀ i : grid0.Coords, EltTy.bits .bf16 = 32 ∨ (Rect.block (s := S303104x384) S4096x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .bf16 = 32 ∨ (Rect.block (s := S384x512) S384x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .bf16 = 32 ∨ (Rect.block (s := S512x64) S512x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S303104x128.size a
  hwx0_7 : ∀ i : grid0.Coords, EltTy.bits .f32 = 32 ∨ (Rect.block (s := S303104x128) S4096x128.size (cc0_transform_7 i) (hinb0_7 i)).WholeWords (EltTy.packing .f32)

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def dot_S4096x384_S384x512_S4096x512_1_0_0_1_n_n : DotDims S4096x384 S384x512 S4096x512 where
  lhsContracting := [1]
  rhsContracting := [0]
  lhsNonContracting := [0]
  rhsNonContracting := [1]
  lhsBatch := []
  rhsBatch := []
  wf := dot_S4096x384_S384x512_S4096x512_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf

abbrev win0_0 : Pipeline.Window sig grid0 :=
  Pipeline.Window.ofSpec (Memref.whole main_v29) S4096x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S300000x3 : Shape := ⟨2, ![300000, 3]⟩
abbrev S512x384 : Shape := ⟨2, ![512, 384]⟩
abbrev S512 : Shape := ⟨1, ![512]⟩
abbrev S64x512 : Shape := ⟨2, ![64, 512]⟩
abbrev S64 : Shape := ⟨1, ![64]⟩
abbrev S128x64 : Shape := ⟨2, ![128, 64]⟩
abbrev S128 : Shape := ⟨1, ![128]⟩
abbrev S300000x1 : Shape := ⟨2, ![300000, 1]⟩
abbrev S300000 : Shape := ⟨1, ![300000]⟩
abbrev S_ : Shape := ⟨0, ![]⟩
abbrev S300000x128 : Shape := ⟨2, ![300000, 128]⟩
abbrev S300000x384 : Shape := ⟨2, ![300000, 384]⟩
abbrev S384x512 : Shape := ⟨2, ![384, 512]⟩
abbrev S300000x512 : Shape := ⟨2, ![300000, 512]⟩
abbrev S1x512 : Shape := ⟨2, ![1, 512]⟩
abbrev S512x64 : Shape := ⟨2, ![512, 64]⟩
abbrev S300000x64 : Shape := ⟨2, ![300000, 64]⟩
abbrev S1x64 : Shape := ⟨2, ![1, 64]⟩
abbrev S64x128 : Shape := ⟨2, ![64, 128]⟩
abbrev S1x128 : Shape := ⟨2, ![1, 128]⟩
abbrev S100000 : Shape := ⟨1, ![100000]⟩
abbrev S100000x1 : Shape := ⟨2, ![100000, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S300000x3, .i32⟩
  | .hbm, ⟨2, _⟩ => ⟨S512x384, .f32⟩
  | .hbm, ⟨3, _⟩ => ⟨S512, .f32⟩
  | .hbm, ⟨4, _⟩ => ⟨S64x512, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S300000x1, .i32⟩
  | .hbm, ⟨9, _⟩ => ⟨S300000, .i32⟩
  | .hbm, ⟨10, _⟩ => ⟨S300000x1, .i32⟩
  | .hbm, ⟨11, _⟩ => ⟨S300000, .i32⟩
  | .hbm, ⟨12, _⟩ => ⟨S300000x1, .i32⟩
  | .hbm, ⟨13, _⟩ => ⟨S300000, .i32⟩
  | .hbm, ⟨14, _⟩ => ⟨S_, .i32⟩
  | .hbm, ⟨15, _⟩ => ⟨S300000, .i32⟩
  | .hbm, ⟨16, _⟩ => ⟨S300000, .i1⟩
  | .hbm, ⟨17, _⟩ => ⟨S_, .i32⟩
  | .hbm, ⟨18, _⟩ => ⟨S300000, .i32⟩
  | .hbm, ⟨19, _⟩ => ⟨S300000, .i32⟩
  | .hbm, ⟨20, _⟩ => ⟨S300000, .i32⟩
  | .hbm, ⟨21, _⟩ => ⟨S300000x1, .i32⟩
  | .hbm, ⟨22, _⟩ => ⟨S300000x128, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x128, .f32⟩
  | .hbm, ⟨32, _⟩ => ⟨S_, .i32⟩
  | .hbm, ⟨33, _⟩ => ⟨S300000, .i32⟩
  | .hbm, ⟨34, _⟩ => ⟨S300000, .i1⟩
  | .hbm, ⟨35, _⟩ => ⟨S_, .i32⟩
  | .hbm, ⟨36, _⟩ => ⟨S300000, .i32⟩
  | .hbm, ⟨37, _⟩ => ⟨S300000, .i32⟩
  | .hbm, ⟨38, _⟩ => ⟨S300000, .i32⟩
  | .hbm, ⟨39, _⟩ => ⟨S300000x1, .i32⟩
  | .hbm, ⟨40, _⟩ => ⟨S300000x128, .f32⟩
  | .hbm, ⟨41, _⟩ => ⟨S300000x384, .f32⟩
  | .hbm, ⟨42, _⟩ => ⟨S384x512, .f32⟩
  | .hbm, ⟨43, _⟩ => ⟨S300000x512, .f32⟩
  | .hbm, ⟨44, _⟩ => ⟨S1x512, .f32⟩
  | .hbm, ⟨45, _⟩ => ⟨S300000x512, .f32⟩
  | .hbm, ⟨46, _⟩ => ⟨S300000x512, .f32⟩
  | .hbm, ⟨47, _⟩ => ⟨S_, .f32⟩
  | .hbm, ⟨48, _⟩ => ⟨S300000x512, .f32⟩
  | .hbm, ⟨49, _⟩ => ⟨S300000x512, .f32⟩
  | .hbm, ⟨50, _⟩ => ⟨S512x64, .f32⟩
  | .hbm, ⟨51, _⟩ => ⟨S300000x64, .f32⟩
  | .hbm, ⟨52, _⟩ => ⟨S1x64, .f32⟩
  | .hbm, ⟨53, _⟩ => ⟨S300000x64, .f32⟩
  | .hbm, ⟨54, _⟩ => ⟨S300000x64, .f32⟩
  | .hbm, ⟨55, _⟩ => ⟨S_, .f32⟩
  | .hbm, ⟨56, _⟩ => ⟨S300000x64, .f32⟩
  | .hbm, ⟨57, _⟩ => ⟨S300000x64, .f32⟩
  | .hbm, ⟨58, _⟩ => ⟨S64x128, .f32⟩
  | .hbm, ⟨59, _⟩ => ⟨S300000x128, .f32⟩
  | .hbm, ⟨60, _⟩ => ⟨S1x128, .f32⟩
  | .hbm, ⟨61, _⟩ => ⟨S300000x128, .f32⟩
  | .hbm, ⟨62, _⟩ => ⟨S300000x128, .f32⟩
  | .hbm, ⟨63, _⟩ => ⟨S_, .f32⟩
  | .hbm, ⟨64, _⟩ => ⟨S100000x128, .f32⟩
  | .hbm, ⟨65, _⟩ => ⟨S300000x1, .i32⟩
  | .hbm, ⟨66, _⟩ => ⟨S100000x128, .f32⟩
  | .hbm, ⟨67, _⟩ => ⟨S_, .f32⟩
  | .hbm, ⟨68, _⟩ => ⟨S300000, .f32⟩
  | .hbm, ⟨69, _⟩ => ⟨S_, .f32⟩
  | .hbm, ⟨70, _⟩ => ⟨S100000, .f32⟩
  | .hbm, ⟨71, _⟩ => ⟨S300000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x1, .f32⟩
  | .hbm, ⟨80, _⟩ => ⟨S_, .f32⟩
  | .hbm, ⟨81, _⟩ => ⟨S100000x1, .f32⟩
  | .hbm, ⟨82, _⟩ => ⟨S100000x1, .i1⟩
  | .hbm, ⟨83, _⟩ => ⟨S100000x128, .i1⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_call2_v0 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S300000x3_S300000x1_0_0 : S300000x3.Slices ![0, 0] S300000x1
  shapeCasts_S300000x1_S300000 : S300000x1.ShapeCasts S300000
  slices_S300000x3_S300000x1_0_1 : S300000x3.Slices ![0, 1] S300000x1
  slices_S300000x3_S300000x1_0_2 : S300000x3.Slices ![0, 2] S300000x1
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x128_S300000x384_d1 : Shape.Concatenates [S300000x128, S300000x128, S300000x128] S300000x384 1
  transposes_S512x384_S384x512_1_0 : S512x384.Transposes [1, 0] S384x512
  bcast_S512_S1x512_1 : S512.BroadcastsInDim S1x512 (![1] : Fin 1 → Fin S1x512.rank)
  bcast_S1x512_S300000x512_0_1 : S1x512.BroadcastsInDim S300000x512 (![0, 1] : Fin 2 → Fin S300000x512.rank)
  bcast_S_S300000x512 : S_.BroadcastsInDim S300000x512 (![] : Fin 0 → Fin S300000x512.rank)
  transposes_S64x512_S512x64_1_0 : S64x512.Transposes [1, 0] S512x64
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  transposes_S128x64_S64x128_1_0 : S128x64.Transposes [1, 0] S64x128
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  gather_S100000x128_S300000x1_S300000x128_1_0_n_n_0_1_1128_wf : GatherDims.WF S100000x128 S300000x1 S300000x128 [1] [0] [] [0] [] 1 ![1, 128]
  dot_S300000x384_S384x512_S300000x512_1_0_0_1_n_n_wf : DotDims.WF S300000x384 S384x512 S300000x512 [1] [0] [0] [1] [] []
  dot_S300000x512_S512x64_S300000x64_1_0_0_1_n_n_wf : DotDims.WF S300000x512 S512x64 S300000x64 [1] [0] [0] [1] [] []
  dot_S300000x64_S64x128_S300000x128_1_0_0_1_n_n_wf : DotDims.WF S300000x64 S64x128 S300000x128 [1] [0] [0] [1] [] []
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def dot_S300000x384_S384x512_S300000x512_1_0_0_1_n_n : DotDims S300000x384 S384x512 S300000x512 where
  lhsContracting := [1]
  rhsContracting := [0]
  lhsNonContracting := [0]
  rhsNonContracting := [1]
  lhsBatch := []
  rhsBatch := []
  wf := dot_S300000x384_S384x512_S300000x512_1_0_0_1_n_n_wf
def dot_S300000x512_S512x64_S300000x64_1_0_0_1_n_n : DotDims S300000x512 S512x64 S300000x64 where
  lhsContracting := [1]
  rhsContracting := [0]
  lhsNonContracting := [0]
  rhsNonContracting := [1]
  lhsBatch := []
  rhsBatch := []
  wf := dot_S300000x512_S512x64_S300000x64_1_0_0_1_n_n_wf
def dot_S300000x64_S64x128_S300000x128_1_0_0_1_n_n : DotDims S300000x64 S64x128 S300000x128 where
  lhsContracting := [1]
  rhsContracting := [0]
  lhsNonContracting := [0]
  rhsNonContracting := [1]
  lhsBatch := []
  rhsBatch := []
  wf := dot_S300000x64_S64x128_S300000x128_1_0_0_1_n_n_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf

class Facts : Prop extends Facts₀ where

variable [Facts]
-- ==== Proof.RegionBits.lean ====
/-
  The frame of the message-passing program, at any float instance.

  The entry function is three stretches of host lines (the three row gathers of the node table and their
  concatenation into one 384-wide feature row per edge; the zero padding of the edge axis to 74 tiles of 4096;
  the transposed weights and the biases as one-row matrices), ONE region over the 74 edge tiles, and two
  stretches of host lines after it (the scatter-average over the central node and the fallback to the node's own
  row). In the region, tile t of the padded feature matrix and tile t of the message matrix move with the grid;
  the three weight matrices and three bias rows are whole arrays fetched once. The body reads its seven input
  blocks, reads the message block it is about to replace (and ignores it), and stores ONE value over the whole
  message block: the three-layer perceptron of the feature tile.

  So after the body the message block holds that value whatever it held before, every input block is
  untouched, and no host line writes an argument array: every weakly fair execution terminates without a fault
  and the eight argument arrays end as launched. The run is stated with every array after the region NAMED, so
  that the value of the result can be read off it.
-/
import proofs.«111660_j61254823575978_1_alg».proof.Proof.Gen.Kernel.Launch
import proofs.«111660_j61254823575978_1_alg».proof.Proof.Gen.Kernel.Skeleton
import proofs.«111660_j61254823575978_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the three stretches of
    host lines before it. -/
abbrev V0 (c : Dev nD) : Valuation τ sig (Elt F) :=
  StableHlo.after (List.flatten [hostOps0, hostOps0_1, hostOps0_2]) (fun b => m (c, b))
/-- The same, read at a reference. -/
abbrev V (c : Dev nD) (b : Ref sig .tc) : Buf (Elt F) ((c : Thread nD τ).loc b) := V0 m c (Proc.devRef .tc b)

/-- Host lines allocate nothing. -/
theorem gather_lines_fresh : (hostOps0 : List (HloOp τ sig (Elt F))).Forall fun op => op.fresh = ∅ := by
  simp only [List.Forall]; repeat' constructor
theorem pad_lines_fresh : (hostOps0_1 : List (HloOp τ sig (Elt F))).Forall fun op => op.fresh = ∅ := by
  simp only [List.Forall]; repeat' constructor
theorem weight_lines_fresh : (hostOps0_2 : List (HloOp τ sig (Elt F))).Forall fun op => op.fresh = ∅ := by
  simp only [List.Forall]; repeat' constructor
theorem scatter_lines_fresh : (hostOps1 : List (HloOp τ sig (Elt F))).Forall fun op => op.fresh = ∅ := by
  simp only [List.Forall]; repeat' constructor
theorem select_lines_fresh : (hostOps1_1 : List (HloOp τ sig (Elt F))).Forall fun op => op.fresh = ∅ := by
  simp only [List.Forall]; repeat' constructor

/-- The entry function is its lines before the region, the region, and the lines after it: it reduces to the
    region continued by the later lines, entered at `V`. -/
theorem entry_around (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨gather_lines_fresh, pad_lines_fresh, weight_lines_fresh⟩) main_chain

/-- The lines after the region touch only the region's arrays and the buffers that bypass it. -/
theorem tail_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem tail_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp scatter_lines_fresh) op hop
  · exact (List.forall_iff_forall_mem.mp select_lines_fresh) op hop
/-- And each writes only its own result, which is none of the region's eight arrays. -/
theorem tail_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every host line writes its own result buffer only; an argument array is no line's result. -/
local macro "not_written" : tactic => `(tactic| (
  simp only [hostOps0, hostOps0_1, hostOps0_2, hostOps1, hostOps1_1, List.flatten_cons, List.flatten_nil, List.append_nil, List.cons_append,
    List.nil_append, List.Forall, StableHlo.nullary_writes, StableHlo.unary_writes, StableHlo.binary_writes, StableHlo.ternary_writes,
    StableHlo.nary_writes, StableHlo.reshape_writes, Finset.mem_singleton]
  repeat' apply And.intro
  all_goals exact StableHlo.devRef_ne_of_ne (by decide)))

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))

/-- No line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) := by
  unfold Pipeline.afterTail₀
  rw [StableHlo.after_of_forall_not_mem (b := Proc.devRef .tc main_arg0) _ _ (List.forall_iff_forall_mem.mp (by not_written)),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))

/-- No line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (List.forall_iff_forall_mem.mp (by not_written)),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))

/-- No line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (List.forall_iff_forall_mem.mp (by not_written)),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))

/-- No line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (List.forall_iff_forall_mem.mp (by not_written)),
    Pipeline.withArrays_of_ne _ c (V0 m c) _ main_arg3 (by exact (by decide : ∀ w, Pipeline.arrRef spec0 w ≠ main_arg3))]
  exact V_main_arg3 m c

/-- No line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))

/-- No line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (List.forall_iff_forall_mem.mp (by not_written)),
    Pipeline.withArrays_of_ne _ c (V0 m c) _ main_arg4 (by exact (by decide : ∀ w, Pipeline.arrRef spec0 w ≠ main_arg4))]
  exact V_main_arg4 m c

/-- No line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))

/-- No line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (List.forall_iff_forall_mem.mp (by not_written)),
    Pipeline.withArrays_of_ne _ c (V0 m c) _ main_arg5 (by exact (by decide : ∀ w, Pipeline.arrRef spec0 w ≠ main_arg5))]
  exact V_main_arg5 m c

/-- No line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))

/-- No line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg6 = m ((c : Thread nD τ).loc main_arg6) := by
  unfold Pipeline.afterTail₀
  rw [StableHlo.after_of_forall_not_mem (b := Proc.devRef .tc main_arg6) _ _ (List.forall_iff_forall_mem.mp (by not_written)),
    Pipeline.withArrays_of_ne _ c (V0 m c) _ main_arg6 (by exact (by decide : ∀ w, Pipeline.arrRef spec0 w ≠ main_arg6))]
  exact V_main_arg6 m c

/-- No line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))

/-- No line after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg7 = m ((c : Thread nD τ).loc main_arg7) := by
  unfold Pipeline.afterTail₀
  rw [StableHlo.after_of_forall_not_mem (b := Proc.devRef .tc main_arg7) _ _ (List.forall_iff_forall_mem.mp (by not_written)),
    Pipeline.withArrays_of_ne _ c (V0 m c) _ main_arg7 (by exact (by decide : ∀ w, Pipeline.arrRef spec0 w ≠ main_arg7))]
  exact V_main_arg7 m c

/-! ## The blocks the region stages -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point — fetched there (the feature tile, at every
    point) or at the first point only (the weights and biases, whose block never moves) — for any proof data over
    these arrays whose body leaves the block in place. -/

theorem staged_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem staged_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem staged_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem staged_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem staged_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem staged_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem staged_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves -/

abbrev whole_S4096x384 : Rect S4096x384 := Rect.unit (s := S4096x384) ![0, 0] S4096x384.size inb_S4096x384_S4096x384_0_0
abbrev whole_S384x512 : Rect S384x512 := Rect.unit (s := S384x512) ![0, 0] S384x512.size inb_S384x512_S384x512_0_0
abbrev whole_S1x512 : Rect S1x512 := Rect.unit (s := S1x512) ![0, 0] S1x512.size inb_S1x512_S1x512_0_0
abbrev whole_S512x64 : Rect S512x64 := Rect.unit (s := S512x64) ![0, 0] S512x64.size inb_S512x64_S512x64_0_0
abbrev whole_S1x64 : Rect S1x64 := Rect.unit (s := S1x64) ![0, 0] S1x64.size inb_S1x64_S1x64_0_0
abbrev whole_S64x128 : Rect S64x128 := Rect.unit (s := S64x128) ![0, 0] S64x128.size inb_S64x128_S64x128_0_0
abbrev whole_S1x128 : Rect S1x128 := Rect.unit (s := S1x128) ![0, 0] S1x128.size inb_S1x128_S1x128_0_0
abbrev whole_S4096x128 : Rect S4096x128 := Rect.unit (s := S4096x128) ![0, 0] S4096x128.size inb_S4096x128_S4096x128_0_0

/-- The message block after the body: one store over the whole block, of the perceptron of the seven input blocks. -/
def msg_block (x0 : Vec F S4096x384 .bf16) (x1 : Vec F S384x512 .bf16) (x2 : Vec F S1x512 .f32) (x3 : Vec F S512x64 .bf16) (x4 : Vec F S1x64 .f32) (x5 : Vec F S64x128 .bf16) (x6 : Vec F S1x128 .f32) : Vec F S4096x128 .f32 :=
  View.canon [⟨whole_S4096x128, k0_pay1 (View.ld x0 (whole_S4096x384)) (View.ld x1 (whole_S384x512)) (View.ld x2 (whole_S1x512)) (View.ld x3 (whole_S512x64)) (View.ld x4 (whole_S1x64)) (View.ld x5 (whole_S64x128)) (View.ld x6 (whole_S1x128))⟩]

/-- That one store covers the block. -/
theorem msg_block_covered (p0 : Vec F S4096x128 .f32) (y : S4096x128.Idx) :
    ∃ pc ∈ ([⟨whole_S4096x128, p0⟩] : List (View.Piece (Elt F) S4096x128 .f32)), y ∈ pc.1.set :=
  View.cover_of_tiled [⟨whole_S4096x128, p0⟩] S4096x128.size (by rfl) y

set_option maxHeartbeats 4000000 in
/-- The body on whole staging buffers: holding the seven input buffers at `x0 … x6` and the message buffer at
    anything, it runs to the continuation holding the inputs as they were and the message buffer at `msg_block`. -/
theorem body_triple (c : Dev nD) (E : Set ℕ) (i : grid0.Coords) (a0 : Memref sig .tc .vmem S4096x384 .bf16) (h0 : a0.IsWhole) (a1 : Memref sig .tc .vmem S384x512 .bf16) (h1 : a1.IsWhole) (a2 : Memref sig .tc .vmem S1x512 .f32) (h2 : a2.IsWhole) (a3 : Memref sig .tc .vmem S512x64 .bf16) (h3 : a3.IsWhole) (a4 : Memref sig .tc .vmem S1x64 .f32) (h4 : a4.IsWhole) (a5 : Memref sig .tc .vmem S64x128 .bf16) (h5 : a5.IsWhole) (a6 : Memref sig .tc .vmem S1x128 .f32) (h6 : a6.IsWhole)
    (a7 : Memref sig .tc .vmem S4096x128 .f32) (h7 : a7.IsWhole)
    (x0 : Vec F S4096x384 .bf16) (x1 : Vec F S384x512 .bf16) (x2 : Vec F S1x512 .f32) (x3 : Vec F S512x64 .bf16) (x4 : Vec F S1x64 .f32) (x5 : Vec F S64x128 .bf16) (x6 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (msg_block x0 x1 x2 x3 x4 x5 x6)) -∗ K ⟨⟩))
      ⊢ wp frame (wpE (defs₀ (F := F)) Variants.none c none) E (cc0__gnn_mlp_kernel i a0 h0 a1 h1 a2 h2 a3 h3 a4 h4 a5 h5 a6 h6 a7 h7) K := by
  simp only [cc0__gnn_mlp_kernel_eq_skeleton]; unfold cc0__gnn_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (msg_block_covered _)

/-! ## The region's proof data -/

/-- On core `c`: the arrays as the region finds them; after the body at point `t` each input buffer at its block and the
    message buffer at `msg_block` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => msg_block (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = msg_block (iblk m c 0 t) (iblk m c 1 t) (iblk m c 2 t) (iblk m c 3 t) (iblk m c 4 t) (iblk m c 5 t) (iblk m c 6 t) := by dsimp only [dats]

theorem staged_0 (c : Dev nD) (t : Fin cfg0.N) (d) : (dats m 0 c).before 0 t d = iblk m c 0 t :=
  staged_0_of m (dats m 0 c) (A_eq m c 0) (after_0 m c) t d
theorem staged_1 (c : Dev nD) (t : Fin cfg0.N) (d) : (dats m 0 c).before 1 t d = iblk m c 1 t :=
  staged_1_of m (dats m 0 c) (A_eq m c 1) (after_1 m c) t d
theorem staged_2 (c : Dev nD) (t : Fin cfg0.N) (d) : (dats m 0 c).before 2 t d = iblk m c 2 t :=
  staged_2_of m (dats m 0 c) (A_eq m c 2) (after_2 m c) t d
theorem staged_3 (c : Dev nD) (t : Fin cfg0.N) (d) : (dats m 0 c).before 3 t d = iblk m c 3 t :=
  staged_3_of m (dats m 0 c) (A_eq m c 3) (after_3 m c) t d
theorem staged_4 (c : Dev nD) (t : Fin cfg0.N) (d) : (dats m 0 c).before 4 t d = iblk m c 4 t :=
  staged_4_of m (dats m 0 c) (A_eq m c 4) (after_4 m c) t d
theorem staged_5 (c : Dev nD) (t : Fin cfg0.N) (d) : (dats m 0 c).before 5 t d = iblk m c 5 t :=
  staged_5_of m (dats m 0 c) (A_eq m c 5) (after_5 m c) t d
theorem staged_6 (c : Dev nD) (t : Fin cfg0.N) (d) : (dats m 0 c).before 6 t d = iblk m c 6 t :=
  staged_6_of m (dats m 0 c) (A_eq m c 6) (after_6 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged_0, staged_1, staged_2, staged_3, staged_4, staged_5, staged_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- Every weakly fair execution of the entry function terminates, and in every final state each of the region's
    arrays holds what the proof data computes for it and every other unscoped buffer holds what the lines after
    the region leave in it. -/
theorem run_named : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := tail_sub) (hfresh := tail_fresh) (hkeep := tail_keeps)
    (hmain := entry_around m Variants.none) (hA := A_eq m) (hΦ := fun _ _ => rfl)

/-- The eight argument arrays end as launched: none is an array of the region, and no host line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_named m ρ)

end Cert.Kernel.Region

end
-- ==== Proof.RegionIdeal.lean ====
/-
  The frame of the message-passing program, at any float instance.

  The entry function is three stretches of host lines (the three row gathers of the node table and their
  concatenation into one 384-wide feature row per edge; the zero padding of the edge axis to 74 tiles of 4096;
  the transposed weights and the biases as one-row matrices), ONE region over the 74 edge tiles, and two
  stretches of host lines after it (the scatter-average over the central node and the fallback to the node's own
  row). In the region, tile t of the padded feature matrix and tile t of the message matrix move with the grid;
  the three weight matrices and three bias rows are whole arrays fetched once. The body reads its seven input
  blocks, reads the message block it is about to replace (and ignores it), and stores ONE value over the whole
  message block: the three-layer perceptron of the feature tile.

  So after the body the message block holds that value whatever it held before, every input block is
  untouched, and no host line writes an argument array: every weakly fair execution terminates without a fault
  and the eight argument arrays end as launched. The run is stated with every array after the region NAMED, so
  that the value of the result can be read off it.
-/
import proofs.«111660_j61254823575978_1_alg».proof.Proof.Gen.KernelIdeal.Launch
import proofs.«111660_j61254823575978_1_alg».proof.Proof.Gen.KernelIdeal.Skeleton
import proofs.«111660_j61254823575978_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the three stretches of
    host lines before it. -/
abbrev V0 (c : Dev nD) : Valuation τ sig (Elt F) :=
  StableHlo.after (List.flatten [hostOps0, hostOps0_1, hostOps0_2]) (fun b => m (c, b))
/-- The same, read at a reference. -/
abbrev V (c : Dev nD) (b : Ref sig .tc) : Buf (Elt F) ((c : Thread nD τ).loc b) := V0 m c (Proc.devRef .tc b)

/-- Host lines allocate nothing. -/
theorem gather_lines_fresh : (hostOps0 : List (HloOp τ sig (Elt F))).Forall fun op => op.fresh = ∅ := by
  simp only [List.Forall]; repeat' constructor
theorem pad_lines_fresh : (hostOps0_1 : List (HloOp τ sig (Elt F))).Forall fun op => op.fresh = ∅ := by
  simp only [List.Forall]; repeat' constructor
theorem weight_lines_fresh : (hostOps0_2 : List (HloOp τ sig (Elt F))).Forall fun op => op.fresh = ∅ := by
  simp only [List.Forall]; repeat' constructor
theorem scatter_lines_fresh : (hostOps1 : List (HloOp τ sig (Elt F))).Forall fun op => op.fresh = ∅ := by
  simp only [List.Forall]; repeat' constructor
theorem select_lines_fresh : (hostOps1_1 : List (HloOp τ sig (Elt F))).Forall fun op => op.fresh = ∅ := by
  simp only [List.Forall]; repeat' constructor

/-- The entry function is its lines before the region, the region, and the lines after it: it reduces to the
    region continued by the later lines, entered at `V`. -/
theorem entry_around (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨gather_lines_fresh, pad_lines_fresh, weight_lines_fresh⟩) main_chain

/-- The lines after the region touch only the region's arrays and the buffers that bypass it. -/
theorem tail_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem tail_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp scatter_lines_fresh) op hop
  · exact (List.forall_iff_forall_mem.mp select_lines_fresh) op hop
/-- And each writes only its own result, which is none of the region's eight arrays. -/
theorem tail_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- Every host line writes its own result buffer only; an argument array is no line's result. -/
local macro "not_written" : tactic => `(tactic| (
  simp only [hostOps0, hostOps0_1, hostOps0_2, hostOps1, hostOps1_1, List.flatten_cons, List.flatten_nil, List.append_nil, List.cons_append,
    List.nil_append, List.Forall, StableHlo.nullary_writes, StableHlo.unary_writes, StableHlo.binary_writes, StableHlo.ternary_writes,
    StableHlo.nary_writes, StableHlo.reshape_writes, Finset.mem_singleton]
  repeat' apply And.intro
  all_goals exact StableHlo.devRef_ne_of_ne (by decide)))

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))

/-- No line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) := by
  unfold Pipeline.afterTail₀
  rw [StableHlo.after_of_forall_not_mem (b := Proc.devRef .tc main_arg0) _ _ (List.forall_iff_forall_mem.mp (by not_written)),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))

/-- No line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (List.forall_iff_forall_mem.mp (by not_written)),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))

/-- No line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (List.forall_iff_forall_mem.mp (by not_written)),
    Pipeline.withArrays_of_ne _ c (V0 m c) _ main_arg2 (by exact (by decide : ∀ w, Pipeline.arrRef spec0 w ≠ main_arg2))]
  exact V_main_arg2 m c

/-- No line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))

/-- No line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (List.forall_iff_forall_mem.mp (by not_written)),
    Pipeline.withArrays_of_ne _ c (V0 m c) _ main_arg3 (by exact (by decide : ∀ w, Pipeline.arrRef spec0 w ≠ main_arg3))]
  exact V_main_arg3 m c

/-- No line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))

/-- No line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (List.forall_iff_forall_mem.mp (by not_written)),
    Pipeline.withArrays_of_ne _ c (V0 m c) _ main_arg4 (by exact (by decide : ∀ w, Pipeline.arrRef spec0 w ≠ main_arg4))]
  exact V_main_arg4 m c

/-- No line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))

/-- No line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (List.forall_iff_forall_mem.mp (by not_written)),
    Pipeline.withArrays_of_ne _ c (V0 m c) _ main_arg5 (by exact (by decide : ∀ w, Pipeline.arrRef spec0 w ≠ main_arg5))]
  exact V_main_arg5 m c

/-- No line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))

/-- No line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg6 = m ((c : Thread nD τ).loc main_arg6) := by
  unfold Pipeline.afterTail₀
  rw [StableHlo.after_of_forall_not_mem (b := Proc.devRef .tc main_arg6) _ _ (List.forall_iff_forall_mem.mp (by not_written)),
    Pipeline.withArrays_of_ne _ c (V0 m c) _ main_arg6 (by exact (by decide : ∀ w, Pipeline.arrRef spec0 w ≠ main_arg6))]
  exact V_main_arg6 m c

/-- No line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))

/-- No line after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg7 = m ((c : Thread nD τ).loc main_arg7) := by
  unfold Pipeline.afterTail₀
  rw [StableHlo.after_of_forall_not_mem (b := Proc.devRef .tc main_arg7) _ _ (List.forall_iff_forall_mem.mp (by not_written)),
    Pipeline.withArrays_of_ne _ c (V0 m c) _ main_arg7 (by exact (by decide : ∀ w, Pipeline.arrRef spec0 w ≠ main_arg7))]
  exact V_main_arg7 m c

/-! ## The blocks the region stages -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point — fetched there (the feature tile, at every
    point) or at the first point only (the weights and biases, whose block never moves) — for any proof data over
    these arrays whose body leaves the block in place. -/

theorem staged_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem staged_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem staged_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem staged_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem staged_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem staged_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem staged_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves -/

abbrev whole_S4096x384 : Rect S4096x384 := Rect.unit (s := S4096x384) ![0, 0] S4096x384.size inb_S4096x384_S4096x384_0_0
abbrev whole_S384x512 : Rect S384x512 := Rect.unit (s := S384x512) ![0, 0] S384x512.size inb_S384x512_S384x512_0_0
abbrev whole_S1x512 : Rect S1x512 := Rect.unit (s := S1x512) ![0, 0] S1x512.size inb_S1x512_S1x512_0_0
abbrev whole_S512x64 : Rect S512x64 := Rect.unit (s := S512x64) ![0, 0] S512x64.size inb_S512x64_S512x64_0_0
abbrev whole_S1x64 : Rect S1x64 := Rect.unit (s := S1x64) ![0, 0] S1x64.size inb_S1x64_S1x64_0_0
abbrev whole_S64x128 : Rect S64x128 := Rect.unit (s := S64x128) ![0, 0] S64x128.size inb_S64x128_S64x128_0_0
abbrev whole_S1x128 : Rect S1x128 := Rect.unit (s := S1x128) ![0, 0] S1x128.size inb_S1x128_S1x128_0_0
abbrev whole_S4096x128 : Rect S4096x128 := Rect.unit (s := S4096x128) ![0, 0] S4096x128.size inb_S4096x128_S4096x128_0_0

/-- The message block after the body: one store over the whole block, of the perceptron of the seven input blocks. -/
def msg_block (x0 : Vec F S4096x384 .bf16) (x1 : Vec F S384x512 .bf16) (x2 : Vec F S1x512 .f32) (x3 : Vec F S512x64 .bf16) (x4 : Vec F S1x64 .f32) (x5 : Vec F S64x128 .bf16) (x6 : Vec F S1x128 .f32) : Vec F S4096x128 .f32 :=
  View.canon [⟨whole_S4096x128, k0_pay1 (View.ld x0 (whole_S4096x384)) (View.ld x1 (whole_S384x512)) (View.ld x2 (whole_S1x512)) (View.ld x3 (whole_S512x64)) (View.ld x4 (whole_S1x64)) (View.ld x5 (whole_S64x128)) (View.ld x6 (whole_S1x128))⟩]

/-- That one store covers the block. -/
theorem msg_block_covered (p0 : Vec F S4096x128 .f32) (y : S4096x128.Idx) :
    ∃ pc ∈ ([⟨whole_S4096x128, p0⟩] : List (View.Piece (Elt F) S4096x128 .f32)), y ∈ pc.1.set :=
  View.cover_of_tiled [⟨whole_S4096x128, p0⟩] S4096x128.size (by rfl) y

set_option maxHeartbeats 4000000 in
/-- The body on whole staging buffers: holding the seven input buffers at `x0 … x6` and the message buffer at
    anything, it runs to the continuation holding the inputs as they were and the message buffer at `msg_block`. -/
theorem body_triple (c : Dev nD) (E : Set ℕ) (i : grid0.Coords) (a0 : Memref sig .tc .vmem S4096x384 .bf16) (h0 : a0.IsWhole) (a1 : Memref sig .tc .vmem S384x512 .bf16) (h1 : a1.IsWhole) (a2 : Memref sig .tc .vmem S1x512 .f32) (h2 : a2.IsWhole) (a3 : Memref sig .tc .vmem S512x64 .bf16) (h3 : a3.IsWhole) (a4 : Memref sig .tc .vmem S1x64 .f32) (h4 : a4.IsWhole) (a5 : Memref sig .tc .vmem S64x128 .bf16) (h5 : a5.IsWhole) (a6 : Memref sig .tc .vmem S1x128 .f32) (h6 : a6.IsWhole)
    (a7 : Memref sig .tc .vmem S4096x128 .f32) (h7 : a7.IsWhole)
    (x0 : Vec F S4096x384 .bf16) (x1 : Vec F S384x512 .bf16) (x2 : Vec F S1x512 .f32) (x3 : Vec F S512x64 .bf16) (x4 : Vec F S1x64 .f32) (x5 : Vec F S64x128 .bf16) (x6 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (msg_block x0 x1 x2 x3 x4 x5 x6)) -∗ K ⟨⟩))
      ⊢ wp frame (wpE (defs₀ (F := F)) Variants.none c none) E (cc0__gnn_mlp_kernel i a0 h0 a1 h1 a2 h2 a3 h3 a4 h4 a5 h5 a6 h6 a7 h7) K := by
  simp only [cc0__gnn_mlp_kernel_eq_skeleton]; unfold cc0__gnn_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (msg_block_covered _)

/-! ## The region's proof data -/

/-- On core `c`: the arrays as the region finds them; after the body at point `t` each input buffer at its block and the
    message buffer at `msg_block` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => msg_block (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = msg_block (iblk m c 0 t) (iblk m c 1 t) (iblk m c 2 t) (iblk m c 3 t) (iblk m c 4 t) (iblk m c 5 t) (iblk m c 6 t) := by dsimp only [dats]

theorem staged_0 (c : Dev nD) (t : Fin cfg0.N) (d) : (dats m 0 c).before 0 t d = iblk m c 0 t :=
  staged_0_of m (dats m 0 c) (A_eq m c 0) (after_0 m c) t d
theorem staged_1 (c : Dev nD) (t : Fin cfg0.N) (d) : (dats m 0 c).before 1 t d = iblk m c 1 t :=
  staged_1_of m (dats m 0 c) (A_eq m c 1) (after_1 m c) t d
theorem staged_2 (c : Dev nD) (t : Fin cfg0.N) (d) : (dats m 0 c).before 2 t d = iblk m c 2 t :=
  staged_2_of m (dats m 0 c) (A_eq m c 2) (after_2 m c) t d
theorem staged_3 (c : Dev nD) (t : Fin cfg0.N) (d) : (dats m 0 c).before 3 t d = iblk m c 3 t :=
  staged_3_of m (dats m 0 c) (A_eq m c 3) (after_3 m c) t d
theorem staged_4 (c : Dev nD) (t : Fin cfg0.N) (d) : (dats m 0 c).before 4 t d = iblk m c 4 t :=
  staged_4_of m (dats m 0 c) (A_eq m c 4) (after_4 m c) t d
theorem staged_5 (c : Dev nD) (t : Fin cfg0.N) (d) : (dats m 0 c).before 5 t d = iblk m c 5 t :=
  staged_5_of m (dats m 0 c) (A_eq m c 5) (after_5 m c) t d
theorem staged_6 (c : Dev nD) (t : Fin cfg0.N) (d) : (dats m 0 c).before 6 t d = iblk m c 6 t :=
  staged_6_of m (dats m 0 c) (A_eq m c 6) (after_6 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged_0, staged_1, staged_2, staged_3, staged_4, staged_5, staged_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- Every weakly fair execution of the entry function terminates, and in every final state each of the region's
    arrays holds what the proof data computes for it and every other unscoped buffer holds what the lines after
    the region leave in it. -/
theorem run_named : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := tail_sub) (hfresh := tail_fresh) (hkeep := tail_keeps)
    (hmain := entry_around m Variants.none) (hA := A_eq m) (hΦ := fun _ _ => rfl)

/-- The eight argument arrays end as launched: none is an array of the region, and no host line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_named m ρ)

end Cert.KernelIdeal.Region

end
-- ==== Proof.HostRun.lean ====
/-
  The reference program's run, read back as a function of its arguments.

  The reference is host lines only. From any launch memory every weakly fair execution terminates, without a fault,
  with every buffer at the lines' composed value of the launch contents. That composed value of the result is
  spelt here through named stages, so that the value claim can speak of "the message matrix" and "the pooling" rather
  than of one long term:
    an end column of the edge list, as a gather index (a negative entry is wrapped by the table's height);
    the feature matrix: for each edge the rows of its three end nodes side by side;
    the two clamped hidden layers and the message matrix;
    the pooling: messages summed into their central node's row, divided by the number of messages received (at least
    one), and a node that received none keeping its own row.
-/
import proofs.«111660_j61254823575978_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The entry function's 77 host lines, in order; a called function's lines stand in its call's place. -/
abbrev ops : List (HloOp τ sig (Elt F)) :=
  [ unary main_arg1 main_v0 ((extractStridedSlice S300000x1 ![0, 0] · slices_S300000x3_S300000x1_0_0) : (⟨S300000x3, .i32⟩ : BufTy).Contents (Elt F) → (⟨S300000x1, .i32⟩ : BufTy).Contents (Elt F)),
    reshape main_v0 main_v1 rfl shapeCasts_S300000x1_S300000,
    unary main_arg1 main_v2 ((extractStridedSlice S300000x1 ![0, 1] · slices_S300000x3_S300000x1_0_1) : (⟨S300000x3, .i32⟩ : BufTy).Contents (Elt F) → (⟨S300000x1, .i32⟩ : BufTy).Contents (Elt F)),
    reshape main_v2 main_v3 rfl shapeCasts_S300000x1_S300000,
    unary main_arg1 main_v4 ((extractStridedSlice S300000x1 ![0, 2] · slices_S300000x3_S300000x1_0_2) : (⟨S300000x3, .i32⟩ : BufTy).Contents (Elt F) → (⟨S300000x1, .i32⟩ : BufTy).Contents (Elt F)),
    reshape main_v4 main_v5 rfl shapeCasts_S300000x1_S300000,
    nullary main_c (constantI S_ 32 0#32),
    unary main_c main_v6 (broadcastInDim S300000 ![] bcast_S_S300000 : (⟨S_, .i32⟩ : BufTy).Contents (Elt F) → (⟨S300000, .i32⟩ : BufTy).Contents (Elt F)),
    binary main_v1 main_v6 main_v7 (cmpi .slt : (⟨S300000, .i32⟩ : BufTy).Contents (Elt F) → (⟨S300000, .i32⟩ : BufTy).Contents (Elt F) → (⟨S300000, .i1⟩ : BufTy).Contents (Elt F)),
    nullary main_c_0 (constantI S_ 32 100000#32),
    unary main_c_0 main_v8 (broadcastInDim S300000 ![] bcast_S_S300000 : (⟨S_, .i32⟩ : BufTy).Contents (Elt F) → (⟨S300000, .i32⟩ : BufTy).Contents (Elt F)),
    binary main_v1 main_v8 main_v9 (addi : (⟨S300000, .i32⟩ : BufTy).Contents (Elt F) → (⟨S300000, .i32⟩ : BufTy).Contents (Elt F) → (⟨S300000, .i32⟩ : BufTy).Contents (Elt F)),
    ternary main_v7 main_v9 main_v1 main_v10 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v10 main_v11 (broadcastInDim S300000x1 ![0] bcast_S300000_S300000x1_0 : (⟨S300000, .i32⟩ : BufTy).Contents (Elt F) → (⟨S300000x1, .i32⟩ : BufTy).Contents (Elt F)),
    binary main_arg0 main_v11 main_v12 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    nullary main_c_1 (constantI S_ 32 0#32),
    unary main_c_1 main_v13 (broadcastInDim S300000 ![] bcast_S_S300000 : (⟨S_, .i32⟩ : BufTy).Contents (Elt F) → (⟨S300000, .i32⟩ : BufTy).Contents (Elt F)),
    binary main_v3 main_v13 main_v14 (cmpi .slt : (⟨S300000, .i32⟩ : BufTy).Contents (Elt F) → (⟨S300000, .i32⟩ : BufTy).Contents (Elt F) → (⟨S300000, .i1⟩ : BufTy).Contents (Elt F)),
    nullary main_c_2 (constantI S_ 32 100000#32),
    unary main_c_2 main_v15 (broadcastInDim S300000 ![] bcast_S_S300000 : (⟨S_, .i32⟩ : BufTy).Contents (Elt F) → (⟨S300000, .i32⟩ : BufTy).Contents (Elt F)),
    binary main_v3 main_v15 main_v16 (addi : (⟨S300000, .i32⟩ : BufTy).Contents (Elt F) → (⟨S300000, .i32⟩ : BufTy).Contents (Elt F) → (⟨S300000, .i32⟩ : BufTy).Contents (Elt F)),
    ternary main_v14 main_v16 main_v3 main_v17 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v17 main_v18 (broadcastInDim S300000x1 ![0] bcast_S300000_S300000x1_0 : (⟨S300000, .i32⟩ : BufTy).Contents (Elt F) → (⟨S300000x1, .i32⟩ : BufTy).Contents (Elt F)),
    binary main_arg0 main_v18 main_v19 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    nullary main_c_3 (constantI S_ 32 0#32),
    unary main_c_3 main_v20 (broadcastInDim S300000 ![] bcast_S_S300000 : (⟨S_, .i32⟩ : BufTy).Contents (Elt F) → (⟨S300000, .i32⟩ : BufTy).Contents (Elt F)),
    binary main_v5 main_v20 main_v21 (cmpi .slt : (⟨S300000, .i32⟩ : BufTy).Contents (Elt F) → (⟨S300000, .i32⟩ : BufTy).Contents (Elt F) → (⟨S300000, .i1⟩ : BufTy).Contents (Elt F)),
    nullary main_c_4 (constantI S_ 32 100000#32),
    unary main_c_4 main_v22 (broadcastInDim S300000 ![] bcast_S_S300000 : (⟨S_, .i32⟩ : BufTy).Contents (Elt F) → (⟨S300000, .i32⟩ : BufTy).Contents (Elt F)),
    binary main_v5 main_v22 main_v23 (addi : (⟨S300000, .i32⟩ : BufTy).Contents (Elt F) → (⟨S300000, .i32⟩ : BufTy).Contents (Elt F) → (⟨S300000, .i32⟩ : BufTy).Contents (Elt F)),
    ternary main_v21 main_v23 main_v5 main_v24 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v24 main_v25 (broadcastInDim S300000x1 ![0] bcast_S300000_S300000x1_0 : (⟨S300000, .i32⟩ : BufTy).Contents (Elt F) → (⟨S300000x1, .i32⟩ : BufTy).Contents (Elt F)),
    binary main_arg0 main_v25 main_v26 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    nary ![main_v12, main_v19, main_v26] main_v27 (fun u => concatenate S300000x384 1 [⟨S300000x128, u 0⟩, ⟨S300000x128, u 1⟩, ⟨S300000x128, u 2⟩] concatenates_S300000x128_S300000x128_S300000x128_S300000x384_d1),
    unary main_arg2 main_v28 ((transpose S384x512 [1, 0] · transposes_S512x384_S384x512_1_0) : (⟨S512x384, .f32⟩ : BufTy).Contents (Elt F) → (⟨S384x512, .f32⟩ : BufTy).Contents (Elt F)),
    binary main_v27 main_v28 main_v29 ((fun l r => Host.dotGeneral dot_S300000x384_S384x512_S300000x512_1_0_0_1_n_n none l r) : (⟨S300000x384, .f32⟩ : BufTy).Contents (Elt F) → (⟨S384x512, .f32⟩ : BufTy).Contents (Elt F) → (⟨S300000x512, .f32⟩ : BufTy).Contents (Elt F)),
    unary main_arg3 main_v30 (broadcastInDim S1x512 ![1] bcast_S512_S1x512_1 : (⟨S512, .f32⟩ : BufTy).Contents (Elt F) → (⟨S1x512, .f32⟩ : BufTy).Contents (Elt F)),
    unary main_v30 main_v31 (broadcastInDim S300000x512 ![0, 1] bcast_S1x512_S300000x512_0_1 : (⟨S1x512, .f32⟩ : BufTy).Contents (Elt F) → (⟨S300000x512, .f32⟩ : BufTy).Contents (Elt F)),
    binary main_v29 main_v31 main_v32 (addf : (⟨S300000x512, .f32⟩ : BufTy).Contents (Elt F) → (⟨S300000x512, .f32⟩ : BufTy).Contents (Elt F) → (⟨S300000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S300000x512, .f32⟩) main_call0_v0) (broadcastInDim S300000x512 ![] bcast_S_S300000x512),
    TRef.binary (TRef.of (T := ⟨S300000x512, .f32⟩) main_v32) (TRef.of (T := ⟨S300000x512, .f32⟩) main_call0_v0) (TRef.of (T := ⟨S300000x512, .f32⟩) main_v33) maximumf,
    unary main_arg4 main_v34 ((transpose S512x64 [1, 0] · transposes_S64x512_S512x64_1_0) : (⟨S64x512, .f32⟩ : BufTy).Contents (Elt F) → (⟨S512x64, .f32⟩ : BufTy).Contents (Elt F)),
    binary main_v33 main_v34 main_v35 ((fun l r => Host.dotGeneral dot_S300000x512_S512x64_S300000x64_1_0_0_1_n_n none l r) : (⟨S300000x512, .f32⟩ : BufTy).Contents (Elt F) → (⟨S512x64, .f32⟩ : BufTy).Contents (Elt F) → (⟨S300000x64, .f32⟩ : BufTy).Contents (Elt F)),
    unary main_arg5 main_v36 (broadcastInDim S1x64 ![1] bcast_S64_S1x64_1 : (⟨S64, .f32⟩ : BufTy).Contents (Elt F) → (⟨S1x64, .f32⟩ : BufTy).Contents (Elt F)),
    unary main_v36 main_v37 (broadcastInDim S300000x64 ![0, 1] bcast_S1x64_S300000x64_0_1 : (⟨S1x64, .f32⟩ : BufTy).Contents (Elt F) → (⟨S300000x64, .f32⟩ : BufTy).Contents (Elt F)),
    binary main_v35 main_v37 main_v38 (addf : (⟨S300000x64, .f32⟩ : BufTy).Contents (Elt F) → (⟨S300000x64, .f32⟩ : BufTy).Contents (Elt F) → (⟨S300000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S300000x64, .f32⟩) main_call1_v0) (broadcastInDim S300000x64 ![] bcast_S_S300000x64),
    TRef.binary (TRef.of (T := ⟨S300000x64, .f32⟩) main_v38) (TRef.of (T := ⟨S300000x64, .f32⟩) main_call1_v0) (TRef.of (T := ⟨S300000x64, .f32⟩) main_v39) maximumf,
    unary main_arg6 main_v40 ((transpose S64x128 [1, 0] · transposes_S128x64_S64x128_1_0) : (⟨S128x64, .f32⟩ : BufTy).Contents (Elt F) → (⟨S64x128, .f32⟩ : BufTy).Contents (Elt F)),
    binary main_v39 main_v40 main_v41 ((fun l r => Host.dotGeneral dot_S300000x64_S64x128_S300000x128_1_0_0_1_n_n none l r) : (⟨S300000x64, .f32⟩ : BufTy).Contents (Elt F) → (⟨S64x128, .f32⟩ : BufTy).Contents (Elt F) → (⟨S300000x128, .f32⟩ : BufTy).Contents (Elt F)),
    unary main_arg7 main_v42 (broadcastInDim S1x128 ![1] bcast_S128_S1x128_1 : (⟨S128, .f32⟩ : BufTy).Contents (Elt F) → (⟨S1x128, .f32⟩ : BufTy).Contents (Elt F)),
    unary main_v42 main_v43 (broadcastInDim S300000x128 ![0, 1] bcast_S1x128_S300000x128_0_1 : (⟨S1x128, .f32⟩ : BufTy).Contents (Elt F) → (⟨S300000x128, .f32⟩ : BufTy).Contents (Elt F)),
    binary main_v41 main_v43 main_v44 (addf : (⟨S300000x128, .f32⟩ : BufTy).Contents (Elt F) → (⟨S300000x128, .f32⟩ : BufTy).Contents (Elt F) → (⟨S300000x128, .f32⟩ : BufTy).Contents (Elt F)),
    nullary main_cst (constant S_ .f32 0x00000000#32),
    unary main_cst main_v45 (broadcastInDim S100000x128 ![] bcast_S_S100000x128 : (⟨S_, .f32⟩ : BufTy).Contents (Elt F) → (⟨S100000x128, .f32⟩ : BufTy).Contents (Elt F)),
    unary main_v1 main_v46 (broadcastInDim S300000x1 ![0] bcast_S300000_S300000x1_0 : (⟨S300000, .i32⟩ : BufTy).Contents (Elt F) → (⟨S300000x1, .i32⟩ : BufTy).Contents (Elt F)),
    ternary main_v45 main_v46 main_v44 main_v47 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)),
    nullary main_cst_5 (constant S_ .f32 0x3F800000#32),
    unary main_cst_5 main_v48 (broadcastInDim S300000 ![] bcast_S_S300000 : (⟨S_, .f32⟩ : BufTy).Contents (Elt F) → (⟨S300000, .f32⟩ : BufTy).Contents (Elt F)),
    nullary main_cst_6 (constant S_ .f32 0x00000000#32),
    unary main_cst_6 main_v49 (broadcastInDim S100000 ![] bcast_S_S100000 : (⟨S_, .f32⟩ : BufTy).Contents (Elt F) → (⟨S100000, .f32⟩ : BufTy).Contents (Elt F)),
    unary main_v1 main_v50 (broadcastInDim S300000x1 ![0] bcast_S300000_S300000x1_0 : (⟨S300000, .i32⟩ : BufTy).Contents (Elt F) → (⟨S300000x1, .i32⟩ : BufTy).Contents (Elt F)),
    ternary main_v49 main_v50 main_v48 main_v51 ((fun x i u => Host.scatterAdd scatter_S100000_S300000x1_S300000_n_0_0_1 x i u) : (⟨S100000, .f32⟩ : BufTy).Contents (Elt F) → (⟨S300000x1, .i32⟩ : BufTy).Contents (Elt F) → (⟨S300000, .f32⟩ : BufTy).Contents (Elt F) → (⟨S100000, .f32⟩ : BufTy).Contents (Elt F)),
    nullary main_cst_7 (constant S_ .f32 0x3F800000#32),
    unary main_cst_7 main_v52 (broadcastInDim S100000 ![] bcast_S_S100000 : (⟨S_, .f32⟩ : BufTy).Contents (Elt F) → (⟨S100000, .f32⟩ : BufTy).Contents (Elt F)),
    binary main_v51 main_v52 main_v53 (maximumf : (⟨S100000, .f32⟩ : BufTy).Contents (Elt F) → (⟨S100000, .f32⟩ : BufTy).Contents (Elt F) → (⟨S100000, .f32⟩ : BufTy).Contents (Elt F)),
    unary main_v53 main_v54 (broadcastInDim S100000x1 ![0] bcast_S100000_S100000x1_0 : (⟨S100000, .f32⟩ : BufTy).Contents (Elt F) → (⟨S100000x1, .f32⟩ : BufTy).Contents (Elt F)),
    unary main_v54 main_v55 (broadcastInDim S100000x128 ![0, 1] bcast_S100000x1_S100000x128_0_1 : (⟨S100000x1, .f32⟩ : BufTy).Contents (Elt F) → (⟨S100000x128, .f32⟩ : BufTy).Contents (Elt F)),
    binary main_v47 main_v55 main_v56 (Host.divf : (⟨S100000x128, .f32⟩ : BufTy).Contents (Elt F) → (⟨S100000x128, .f32⟩ : BufTy).Contents (Elt F) → (⟨S100000x128, .f32⟩ : BufTy).Contents (Elt F)),
    unary main_v51 main_v57 (broadcastInDim S100000x1 ![0] bcast_S100000_S100000x1_0 : (⟨S100000, .f32⟩ : BufTy).Contents (Elt F) → (⟨S100000x1, .f32⟩ : BufTy).Contents (Elt F)),
    nullary main_cst_8 (constant S_ .f32 0x00000000#32),
    unary main_cst_8 main_v58 (broadcastInDim S100000x1 ![] bcast_S_S100000x1 : (⟨S_, .f32⟩ : BufTy).Contents (Elt F) → (⟨S100000x1, .f32⟩ : BufTy).Contents (Elt F)),
    binary main_v57 main_v58 main_v59 (cmpf .ogt : (⟨S100000x1, .f32⟩ : BufTy).Contents (Elt F) → (⟨S100000x1, .f32⟩ : BufTy).Contents (Elt F) → (⟨S100000x1, .i1⟩ : BufTy).Contents (Elt F)),
    TRef.unary (TRef.of (T := ⟨S100000x1, .i1⟩) main_v59) (TRef.of (T := ⟨S100000x128, .i1⟩) main_call2_v0) (broadcastInDim S100000x128 ![0, 1] bcast_S100000x1_S100000x128_0_1),
    TRef.ternary (TRef.of (T := ⟨S100000x128, .i1⟩) main_call2_v0) (TRef.of (T := ⟨S100000x128, .f32⟩) main_v56) (TRef.of (T := ⟨S100000x128, .f32⟩) main_arg0) (TRef.of (T := ⟨S100000x128, .f32⟩) main_v60) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., nullary_bufs_sub .., unary_bufs_sub .., binary_bufs_sub .., unary_bufs_sub .., ternary_bufs_sub ..⟩

/-! ## The stages -/

/-- End column `0` (the central node), `1` and `2` of the edge list, as vectors over the edges. -/
def centre (x1 : (⟨S300000x3, .i32⟩ : BufTy).Contents (Elt F)) : (⟨S300000, .i32⟩ : BufTy).Contents (Elt F) :=
  shapeCast S300000 (extractStridedSlice S300000x1 ![0, 0] x1 slices_S300000x3_S300000x1_0_0) shapeCasts_S300000x1_S300000
def second (x1 : (⟨S300000x3, .i32⟩ : BufTy).Contents (Elt F)) : (⟨S300000, .i32⟩ : BufTy).Contents (Elt F) :=
  shapeCast S300000 (extractStridedSlice S300000x1 ![0, 1] x1 slices_S300000x3_S300000x1_0_1) shapeCasts_S300000x1_S300000
def third (x1 : (⟨S300000x3, .i32⟩ : BufTy).Contents (Elt F)) : (⟨S300000, .i32⟩ : BufTy).Contents (Elt F) :=
  shapeCast S300000 (extractStridedSlice S300000x1 ![0, 2] x1 slices_S300000x3_S300000x1_0_2) shapeCasts_S300000x1_S300000

/-- A column of node numbers as a gather index: a negative entry has the table's height added. -/
def wrapped (v : (⟨S300000, .i32⟩ : BufTy).Contents (Elt F)) : (⟨S300000x1, .i32⟩ : BufTy).Contents (Elt F) :=
  broadcastInDim S300000x1 ![0] bcast_S300000_S300000x1_0
    (select (cmpi .slt v (broadcastInDim S300000 ![] bcast_S_S300000 (constantI S_ 32 0#32)))
      (addi v (broadcastInDim S300000 ![] bcast_S_S300000 (constantI S_ 32 100000#32))) v)

/-- The feature matrix: per edge, the rows of its three end nodes side by side. -/
def feats (x0 : (⟨S100000x128, .f32⟩ : BufTy).Contents (Elt F)) (x1 : (⟨S300000x3, .i32⟩ : BufTy).Contents (Elt F)) : (⟨S300000x384, .f32⟩ : BufTy).Contents (Elt F) :=
  concatenate S300000x384 1
    [⟨S300000x128, Host.gather gather_S100000x128_S300000x1_S300000x128_1_0_n_n_0_1_1128 x0 (wrapped (centre x1))⟩,
     ⟨S300000x128, Host.gather gather_S100000x128_S300000x1_S300000x128_1_0_n_n_0_1_1128 x0 (wrapped (second x1))⟩,
     ⟨S300000x128, Host.gather gather_S100000x128_S300000x1_S300000x128_1_0_n_n_0_1_1128 x0 (wrapped (third x1))⟩]
    concatenates_S300000x128_S300000x128_S300000x128_S300000x384_d1

/-- The first hidden layer, clamped at zero. -/
def hidden1 (f : (⟨S300000x384, .f32⟩ : BufTy).Contents (Elt F)) (x2 : (⟨S512x384, .f32⟩ : BufTy).Contents (Elt F)) (x3 : (⟨S512, .f32⟩ : BufTy).Contents (Elt F)) : (⟨S300000x512, .f32⟩ : BufTy).Contents (Elt F) :=
  maximumf
    (addf (Host.dotGeneral dot_S300000x384_S384x512_S300000x512_1_0_0_1_n_n none f (transpose S384x512 [1, 0] x2 transposes_S512x384_S384x512_1_0))
      (broadcastInDim S300000x512 ![0, 1] bcast_S1x512_S300000x512_0_1 (broadcastInDim S1x512 ![1] bcast_S512_S1x512_1 x3)))
    (broadcastInDim S300000x512 ![] bcast_S_S300000x512 (constant S_ .f32 0x00000000#32))

/-- The second hidden layer, clamped at zero. -/
def hidden2 (h : (⟨S300000x512, .f32⟩ : BufTy).Contents (Elt F)) (x4 : (⟨S64x512, .f32⟩ : BufTy).Contents (Elt F)) (x5 : (⟨S64, .f32⟩ : BufTy).Contents (Elt F)) : (⟨S300000x64, .f32⟩ : BufTy).Contents (Elt F) :=
  maximumf
    (addf (Host.dotGeneral dot_S300000x512_S512x64_S300000x64_1_0_0_1_n_n none h (transpose S512x64 [1, 0] x4 transposes_S64x512_S512x64_1_0))
      (broadcastInDim S300000x64 ![0, 1] bcast_S1x64_S300000x64_0_1 (broadcastInDim S1x64 ![1] bcast_S64_S1x64_1 x5)))
    (broadcastInDim S300000x64 ![] bcast_S_S300000x64 (constant S_ .f32 0x00000000#32))

/-- The message matrix. -/
def messages (h : (⟨S300000x64, .f32⟩ : BufTy).Contents (Elt F)) (x6 : (⟨S128x64, .f32⟩ : BufTy).Contents (Elt F)) (x7 : (⟨S128, .f32⟩ : BufTy).Contents (Elt F)) : (⟨S300000x128, .f32⟩ : BufTy).Contents (Elt F) :=
  addf (Host.dotGeneral dot_S300000x64_S64x128_S300000x128_1_0_0_1_n_n none h (transpose S64x128 [1, 0] x6 transposes_S128x64_S64x128_1_0))
    (broadcastInDim S300000x128 ![0, 1] bcast_S1x128_S300000x128_0_1 (broadcastInDim S1x128 ![1] bcast_S128_S1x128_1 x7))

/-- How many messages each node receives. -/
def received (x1 : (⟨S300000x3, .i32⟩ : BufTy).Contents (Elt F)) : (⟨S100000, .f32⟩ : BufTy).Contents (Elt F) :=
  Host.scatterAdd scatter_S100000_S300000x1_S300000_n_0_0_1
    (broadcastInDim S100000 ![] bcast_S_S100000 (constant S_ .f32 0x00000000#32))
    (broadcastInDim S300000x1 ![0] bcast_S300000_S300000x1_0 (centre x1))
    (broadcastInDim S300000 ![] bcast_S_S300000 (constant S_ .f32 0x3F800000#32))

/-- The pooling of a message matrix: the mean of a node's received messages, or the node's own row if it received none. -/
def pooled (msg : (⟨S300000x128, .f32⟩ : BufTy).Contents (Elt F)) (x0 : (⟨S100000x128, .f32⟩ : BufTy).Contents (Elt F)) (x1 : (⟨S300000x3, .i32⟩ : BufTy).Contents (Elt F)) : (⟨S100000x128, .f32⟩ : BufTy).Contents (Elt F) :=
  select
    (broadcastInDim S100000x128 ![0, 1] bcast_S100000x1_S100000x128_0_1
      (cmpf .ogt (broadcastInDim S100000x1 ![0] bcast_S100000_S100000x1_0 (received x1))
        (broadcastInDim S100000x1 ![] bcast_S_S100000x1 (constant S_ .f32 0x00000000#32))))
    (Host.divf
      (Host.scatterAdd scatter_S100000x128_S300000x1_S300000x128_1_0_0_1
        (broadcastInDim S100000x128 ![] bcast_S_S100000x128 (constant S_ .f32 0x00000000#32))
        (broadcastInDim S300000x1 ![0] bcast_S300000_S300000x1_0 (centre x1)) msg)
      (broadcastInDim S100000x128 ![0, 1] bcast_S100000x1_S100000x128_0_1
        (broadcastInDim S100000x1 ![0] bcast_S100000_S100000x1_0
          (maximumf (received x1) (broadcastInDim S100000 ![] bcast_S_S100000 (constant S_ .f32 0x3F800000#32))))))
    x0

/-- The reference's result as a function of its eight arguments. -/
def result (x0 : (⟨S100000x128, .f32⟩ : BufTy).Contents (Elt F)) (x1 : (⟨S300000x3, .i32⟩ : BufTy).Contents (Elt F)) (x2 : (⟨S512x384, .f32⟩ : BufTy).Contents (Elt F)) (x3 : (⟨S512, .f32⟩ : BufTy).Contents (Elt F))
    (x4 : (⟨S64x512, .f32⟩ : BufTy).Contents (Elt F)) (x5 : (⟨S64, .f32⟩ : BufTy).Contents (Elt F)) (x6 : (⟨S128x64, .f32⟩ : BufTy).Contents (Elt F)) (x7 : (⟨S128, .f32⟩ : BufTy).Contents (Elt F)) : (⟨S100000x128, .f32⟩ : BufTy).Contents (Elt F) :=
  pooled (messages (hidden2 (hidden1 (feats x0 x1) x2 x3) x4 x5) x6 x7) x0 x1

set_option maxRecDepth 8192 in
set_option maxHeartbeats 30800000 in
/-- From any memory with zero counters: every weakly fair execution of the reference terminates with its result
    buffer at `result` of the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v60).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HostRun

end
-- ==== Proof.Mlp.lean ====
/-
  The per-edge perceptron, as one function of an edge's feature row and the six parameter arrays.

  An edge's message is three affine layers with a clamp at zero after the first two:
    h1 k2 = max (Σ k1, f k1 · w1 k1 k2 + b1 k2) 0,   h2 k3 = max (Σ k2, h1 k2 · w2 k2 k3 + b2 k3) 0,
    msg c = Σ k3, h2 k3 · w3 k3 c + b3 c,
  with f the 384 features of the edge (the rows of its three end nodes side by side), w1 … w3 the weight matrices
  already transposed to (input, output) layout and b1 … b3 the biases. Every sum is a finite sum in the commutative
  monoid of the extended reals, so the order in which a machine accumulates it is immaterial, and nothing here needs
  the entries to be finite. The clamp's zero is a parameter: both programs spell it by the same float word.
-/
import Idealize.ShloMosaic.PureOps.Ideal
import Idealize.ShloMosaic.Lib.ValueIdx

noncomputable section

open scoped BigOperators

namespace Cert.Mlp

open Idealize.ShloMosaic

/-- The float word of zero, read at the ideal instance: the clamp's bound in both programs. -/
abbrev zeroWord : EReal := (FloatOps.ofBits (F := Ideal) .f32 0x00000000#32 : Ideal .f32)

/-- One affine layer followed by the clamp at `z`, at output position `n`. -/
def clampedLayer {K N : Nat} (z : EReal) (inp : Fin K → EReal) (w : Fin K → Fin N → EReal) (b : Fin N → EReal) (n : Fin N) : EReal :=
  max ((∑ k : Fin K, inp k * w k n) + b n) z

/-- The last layer: affine, no clamp. -/
def affineLayer {K N : Nat} (inp : Fin K → EReal) (w : Fin K → Fin N → EReal) (b : Fin N → EReal) (n : Fin N) : EReal :=
  (∑ k : Fin K, inp k * w k n) + b n

/-- An edge's message at column `c`. -/
def perceptron (z : EReal) (f : Fin 384 → EReal)
    (w1 : Fin 384 → Fin 512 → EReal) (b1 : Fin 512 → EReal)
    (w2 : Fin 512 → Fin 64 → EReal) (b2 : Fin 64 → EReal)
    (w3 : Fin 64 → Fin 128 → EReal) (b3 : Fin 128 → EReal) (c : Fin 128) : EReal :=
  affineLayer (clampedLayer z (clampedLayer z f w1 b1) w2 b2) w3 b3 c

end Cert.Mlp

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.BodyEntry.lean ====
/-
  The body's one stored value, read at an entry.

  The value the body stores over the message block is computed from the seven loaded blocks by three matrix products,
  each accumulated from an all-zero block, each followed by the addition of a one-row bias broadcast down the rows, the
  first two then clamped at zero; the narrowing of the two hidden layers to a shorter float format is the identity on
  the extended reals. A product of a [4096, K] by a [K, N] block read at (p, n) is the sum over k of row p times column n,
  a broadcast row read at (p, n) is the row's entry n, and the clamp, the addition and the narrowing act entry by entry.
  So entry (p, c) of the stored value is the perceptron of row p of the feature block.
-/
import proofs.«111660_j61254823575978_1_alg».proof.Proof.Gen.KernelIdeal.Skeleton
import proofs.«111660_j61254823575978_1_alg».proof.Proof.Mlp
import proofs.«111660_j61254823575978_1_alg».proof.Proof.LibMatmulRead
import Idealize.ShloMosaic.Lib.Pipeline.Value
import Idealize.ShloMosaic.Lib.ValueIdx
import Idealize.ShloMosaic.Lib.ValueLayout

noncomputable section

open scoped BigOperators

namespace Cert.KernelIdeal.Body

open Cert.KernelIdeal Cert.KernelIdeal.Gen Cert.Mlp
open Idealize.ShloMosaic Idealize.ShloMosaic.ValueIdx Idealize.ShloMosaic.MatmulRead

/-- The three contraction records are of the rows-by-columns form. -/
theorem rows_by_cols_1 : RowsByCols dot_S4096x384_S384x512_S4096x512_1_0_0_1_n_n := ⟨rfl, rfl, rfl, rfl, rfl, rfl⟩
theorem rows_by_cols_2 : RowsByCols dot_S4096x512_S512x64_S4096x64_1_0_0_1_n_n := ⟨rfl, rfl, rfl, rfl, rfl, rfl⟩
theorem rows_by_cols_3 : RowsByCols dot_S4096x64_S64x128_S4096x128_1_0_0_1_n_n := ⟨rfl, rfl, rfl, rfl, rfl, rfl⟩

/-- The first hidden layer of the block at (p, n). -/
theorem hidden1_entry (v0 : FVec Ideal S4096x384 .bf16) (v2 : FVec Ideal S384x512 .bf16) (v5 : FVec Ideal S1x512 .f32)
    (p : Fin 4096) (n : Fin 512) :
    (truncf (F := Ideal) .bf16
        (maximumf
          (addf (matmul dot_S4096x384_S384x512_S4096x512_1_0_0_1_n_n none (shapeCast S4096x384 v0 shapeCasts_S4096x384_S4096x384)
              (shapeCast S384x512 v2 shapeCasts_S384x512_S384x512) (constant S4096x512 .f32 0x00000000#32))
            (broadcastTo S4096x512 (shapeCast S1x512 v5 shapeCasts_S1x512_S1x512) broadcasts_S1x512_S4096x512))
          (broadcast S4096x512 (Scalar.ofBits .f32 0x00000000#32)))
        bitsLt_bf16_f32 : FVec Ideal S4096x512 .bf16) (ix2 p n)
      = clampedLayer zeroWord (fun k => v0 (ix2 p k)) (fun k n => v2 (ix2 k n)) (fun n => v5 (ix2 (0 : Fin 1) n)) n := by
  show max (matmul dot_S4096x384_S384x512_S4096x512_1_0_0_1_n_n none (shapeCast S4096x384 v0 shapeCasts_S4096x384_S4096x384)
        (shapeCast S384x512 v2 shapeCasts_S384x512_S384x512) (constant (F := Ideal) S4096x512 .f32 0x00000000#32) (ix2 p n)
      + broadcastTo S4096x512 (shapeCast S1x512 v5 shapeCasts_S1x512_S1x512) broadcasts_S1x512_S4096x512 (ix2 p n)) zeroWord = _
  rw [shapeCast_self, shapeCast_self, shapeCast_self]
  exact congrArg₂ (fun a b : EReal => max (a + b) zeroWord) (matmul_zero_ix2 rows_by_cols_1 rfl rfl none v0 v2 p n)
    (broadcastTo_1b_ab_apply v5 broadcasts_S1x512_S4096x512 p n)

/-- The second hidden layer at (p, n), from any first layer. -/
theorem hidden2_entry (h1 : FVec Ideal S4096x512 .bf16) (v12 : FVec Ideal S512x64 .bf16) (v15 : FVec Ideal S1x64 .f32)
    (p : Fin 4096) (n : Fin 64) :
    (truncf (F := Ideal) .bf16
        (maximumf
          (addf (matmul dot_S4096x512_S512x64_S4096x64_1_0_0_1_n_n none h1
              (shapeCast S512x64 v12 shapeCasts_S512x64_S512x64) (constant S4096x64 .f32 0x00000000#32))
            (broadcastTo S4096x64 (shapeCast S1x64 v15 shapeCasts_S1x64_S1x64) broadcasts_S1x64_S4096x64))
          (broadcast S4096x64 (Scalar.ofBits .f32 0x00000000#32)))
        bitsLt_bf16_f32 : FVec Ideal S4096x64 .bf16) (ix2 p n)
      = clampedLayer zeroWord (fun k => h1 (ix2 p k)) (fun k n => v12 (ix2 k n)) (fun n => v15 (ix2 (0 : Fin 1) n)) n := by
  show max (matmul dot_S4096x512_S512x64_S4096x64_1_0_0_1_n_n none h1
        (shapeCast S512x64 v12 shapeCasts_S512x64_S512x64) (constant (F := Ideal) S4096x64 .f32 0x00000000#32) (ix2 p n)
      + broadcastTo S4096x64 (shapeCast S1x64 v15 shapeCasts_S1x64_S1x64) broadcasts_S1x64_S4096x64 (ix2 p n)) zeroWord = _
  rw [shapeCast_self, shapeCast_self]
  exact congrArg₂ (fun a b : EReal => max (a + b) zeroWord) (matmul_zero_ix2 rows_by_cols_2 rfl rfl none h1 v12 p n)
    (broadcastTo_1b_ab_apply v15 broadcasts_S1x64_S4096x64 p n)

/-- The message at (p, c), from any second layer. -/
theorem message_entry (h2 : FVec Ideal S4096x64 .bf16) (v22 : FVec Ideal S64x128 .bf16) (v25 : FVec Ideal S1x128 .f32)
    (p : Fin 4096) (c : Fin 128) :
    (addf (F := Ideal) (matmul dot_S4096x64_S64x128_S4096x128_1_0_0_1_n_n none h2
          (shapeCast S64x128 v22 shapeCasts_S64x128_S64x128) (constant S4096x128 .f32 0x00000000#32))
        (broadcastTo S4096x128 (shapeCast S1x128 v25 shapeCasts_S1x128_S1x128) broadcasts_S1x128_S4096x128)) (ix2 p c)
      = affineLayer (fun k => h2 (ix2 p k)) (fun k n => v22 (ix2 k n)) (fun n => v25 (ix2 (0 : Fin 1) n)) c := by
  show matmul dot_S4096x64_S64x128_S4096x128_1_0_0_1_n_n none h2
        (shapeCast S64x128 v22 shapeCasts_S64x128_S64x128) (constant (F := Ideal) S4096x128 .f32 0x00000000#32) (ix2 p c)
      + broadcastTo S4096x128 (shapeCast S1x128 v25 shapeCasts_S1x128_S1x128) broadcasts_S1x128_S4096x128 (ix2 p c) = _
  rw [shapeCast_self, shapeCast_self]
  exact congrArg₂ (fun a b : EReal => a + b) (matmul_zero_ix2 rows_by_cols_3 rfl rfl none h2 v22 p c)
    (broadcastTo_1b_ab_apply v25 broadcasts_S1x128_S4096x128 p c)

/-- Entry (p, c) of the value the body stores is the perceptron of row p of the feature block. -/
theorem stored_entry (v0 : FVec Ideal S4096x384 .bf16) (v2 : FVec Ideal S384x512 .bf16) (v5 : FVec Ideal S1x512 .f32)
    (v12 : FVec Ideal S512x64 .bf16) (v15 : FVec Ideal S1x64 .f32) (v22 : FVec Ideal S64x128 .bf16) (v25 : FVec Ideal S1x128 .f32)
    (p : Fin 4096) (c : Fin 128) :
    k0_pay1 (F := Ideal) v0 v2 v5 v12 v15 v22 v25 (ix2 p c)
      = perceptron zeroWord (fun k => v0 (ix2 p k)) (fun k n => v2 (ix2 k n)) (fun n => v5 (ix2 (0 : Fin 1) n))
          (fun k n => v12 (ix2 k n)) (fun n => v15 (ix2 (0 : Fin 1) n)) (fun k n => v22 (ix2 k n)) (fun n => v25 (ix2 (0 : Fin 1) n)) c := by
  unfold k0_pay1 perceptron
  refine (message_entry _ v22 v25 p c).trans ?_
  refine congrArg (fun f => affineLayer f (fun k n => v22 (ix2 k n)) (fun n => v25 (ix2 (0 : Fin 1) n)) c) (funext fun k3 => ?_)
  refine (hidden2_entry _ v12 v15 p k3).trans ?_
  refine congrArg (fun f => clampedLayer zeroWord f (fun k n => v12 (ix2 k n)) (fun n => v15 (ix2 (0 : Fin 1) n)) k3) (funext fun k2 => ?_)
  exact hidden1_entry v0 v2 v5 p k2

end Cert.KernelIdeal.Body

end
-- ==== Proof.Messages.lean ====
/-
  The message matrix the region leaves, as one function of the arrays the region finds.

  Grid point t stages rows 4096·t … 4096·t + 4095 of the padded feature matrix and the whole of each weight matrix and
  bias row, and writes back rows 4096·t … 4096·t + 4095 of the message matrix. Entry (p, c) of what it writes is the
  perceptron of row p of its feature tile, which is row 4096·t + p of the feature matrix. The 74 tiles cover the
  303104 rows (row r lies in tile r / 4096), so the whole array ends at: entry (r, c) is the perceptron of feature row r.
-/
import proofs.«111660_j61254823575978_1_alg».proof.Proof.RegionIdeal
import proofs.«111660_j61254823575978_1_alg».proof.Proof.BodyEntry
import Idealize.ShloMosaic.Lib.Pipeline.Value
import Idealize.ShloMosaic.Lib.ValueIdx

set_option maxRecDepth 16384

noncomputable section

namespace Cert.KernelIdeal.Messages

open Cert.KernelIdeal Cert.KernelIdeal.Gen Cert.KernelIdeal.Region Cert.KernelIdeal.Body Cert.Mlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The value the body stores, at any index of the block: the perceptron of the index's row of the feature block. -/
theorem stored_at (v0 : FVec Ideal S4096x384 .bf16) (v2 : FVec Ideal S384x512 .bf16) (v5 : FVec Ideal S1x512 .f32)
    (v12 : FVec Ideal S512x64 .bf16) (v15 : FVec Ideal S1x64 .f32) (v22 : FVec Ideal S64x128 .bf16) (v25 : FVec Ideal S1x128 .f32)
    (y : S4096x128.Idx) :
    k0_pay1 (F := Ideal) v0 v2 v5 v12 v15 v22 v25 y
      = perceptron zeroWord (fun k => v0 (ix2 (y 0) k)) (fun k n => v2 (ix2 k n)) (fun n => v5 (ix2 (0 : Fin 1) n))
          (fun k n => v12 (ix2 k n)) (fun n => v15 (ix2 (0 : Fin 1) n)) (fun k n => v22 (ix2 k n)) (fun n => v25 (ix2 (0 : Fin 1) n)) (y 1) := by
  exact (congrArg (k0_pay1 (F := Ideal) v0 v2 v5 v12 v15 v22 v25) (eq_ix2 y)).trans (stored_entry v0 v2 v5 v12 v15 v22 v25 (y 0) (y 1))

/-- The message matrix the region leaves: entry (r, c) is the perceptron of row r of the padded feature matrix, with the
    weights and biases the region finds. -/
def allMessages (c : Dev nD) : S303104x128.Idx → Elt Ideal .f32 := fun i =>
  perceptron zeroWord (fun k => V m c main_v29 (ix2 (i 0) k)) (fun k n => V m c main_v31 (ix2 k n)) (fun n => V m c main_v36 (ix2 (0 : Fin 1) n))
    (fun k n => V m c main_v33 (ix2 k n)) (fun n => V m c main_v37 (ix2 (0 : Fin 1) n)) (fun k n => V m c main_v35 (ix2 k n))
    (fun n => V m c main_v38 (ix2 (0 : Fin 1) n)) (i 1)

/-- The printed index maps over the grid: the feature tile and the message tile move together along the rows, and every
    other block index is zero. -/
theorem tile_indices : ∀ t : Fin cfg0.N, win0_0.index t (0 : Fin 2) = win0_7.index t (0 : Fin 2) ∧ win0_0.index t (1 : Fin 2) = 0
    ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every row tile is some point's. -/
theorem tile_onto : ∀ q : Fin 74, ∃ t : Fin cfg0.N, win0_7.index t = ![q.val, 0] :=
  (by decide +kernel : ∀ q : Fin 74, ∃ t : Fin grid0.N, win0_7.index t = ![q.val, 0])

/-! A staged block read at a local index is its array read at the index shifted by the block's offset: the feature tile's
    rows are offset by the point's tile number times 4096, every other block sits at the array's origin. -/

theorem feats_block (c : Dev nD) (t : Fin cfg0.N) (y : S4096x128.Idx) (k : Fin 384) :
    iblk m c 0 t (ix2 (y 0) k) = V m c main_v29 (ix2 ((((cfg0.win 7).blk t).view.emb y) 0) k) := by
  obtain ⟨e0, e1, -⟩ := tile_indices t
  show V m c main_v29 (((cfg0.win 0).blk t).view.emb (ix2 (y 0) k)) = _
  refine congrArg (V m c main_v29) (funext fun a => Fin.ext ?_)
  match a with
  | ⟨0, _⟩ => show win0_0.index t (0 : Fin 2) * 4096 + 1 * (y 0).val = win0_7.index t (0 : Fin 2) * 4096 + 1 * (y 0).val; omega
  | ⟨1, _⟩ => show win0_0.index t (1 : Fin 2) * 384 + 1 * k.val = k.val; omega

theorem weights1_block (c : Dev nD) (t : Fin cfg0.N) (k : Fin 384) (n : Fin 512) :
    iblk m c 1 t (ix2 k n) = V m c main_v31 (ix2 k n) := by
  obtain ⟨-, -, -, e3, e4, -⟩ := tile_indices t
  show V m c main_v31 (((cfg0.win 1).blk t).view.emb (ix2 k n)) = _
  refine congrArg (V m c main_v31) (funext fun a => Fin.ext ?_)
  match a with
  | ⟨0, _⟩ => show win0_1.index t (0 : Fin 2) * 384 + 1 * k.val = k.val; omega
  | ⟨1, _⟩ => show win0_1.index t (1 : Fin 2) * 512 + 1 * n.val = n.val; omega

theorem bias1_block (c : Dev nD) (t : Fin cfg0.N) (n : Fin 512) :
    iblk m c 2 t (ix2 (0 : Fin 1) n) = V m c main_v36 (ix2 (0 : Fin 1) n) := by
  obtain ⟨-, -, -, -, -, e5, e6, -⟩ := tile_indices t
  show V m c main_v36 (((cfg0.win 2).blk t).view.emb (ix2 (0 : Fin 1) n)) = _
  refine congrArg (V m c main_v36) (funext fun a => Fin.ext ?_)
  match a with
  | ⟨0, _⟩ => show win0_2.index t (0 : Fin 2) * 1 + 1 * 0 = 0; omega
  | ⟨1, _⟩ => show win0_2.index t (1 : Fin 2) * 512 + 1 * n.val = n.val; omega

theorem weights2_block (c : Dev nD) (t : Fin cfg0.N) (k : Fin 512) (n : Fin 64) :
    iblk m c 3 t (ix2 k n) = V m c main_v33 (ix2 k n) := by
  obtain ⟨-, -, -, -, -, -, -, e7, e8, -⟩ := tile_indices t
  show V m c main_v33 (((cfg0.win 3).blk t).view.emb (ix2 k n)) = _
  refine congrArg (V m c main_v33) (funext fun a => Fin.ext ?_)
  match a with
  | ⟨0, _⟩ => show win0_3.index t (0 : Fin 2) * 512 + 1 * k.val = k.val; omega
  | ⟨1, _⟩ => show win0_3.index t (1 : Fin 2) * 64 + 1 * n.val = n.val; omega

theorem bias2_block (c : Dev nD) (t : Fin cfg0.N) (n : Fin 64) :
    iblk m c 4 t (ix2 (0 : Fin 1) n) = V m c main_v37 (ix2 (0 : Fin 1) n) := by
  obtain ⟨-, -, -, -, -, -, -, -, -, e9, e10, -⟩ := tile_indices t
  show V m c main_v37 (((cfg0.win 4).blk t).view.emb (ix2 (0 : Fin 1) n)) = _
  refine congrArg (V m c main_v37) (funext fun a => Fin.ext ?_)
  match a with
  | ⟨0, _⟩ => show win0_4.index t (0 : Fin 2) * 1 + 1 * 0 = 0; omega
  | ⟨1, _⟩ => show win0_4.index t (1 : Fin 2) * 64 + 1 * n.val = n.val; omega

theorem weights3_block (c : Dev nD) (t : Fin cfg0.N) (k : Fin 64) (n : Fin 128) :
    iblk m c 5 t (ix2 k n) = V m c main_v35 (ix2 k n) := by
  obtain ⟨-, -, -, -, -, -, -, -, -, -, -, e11, e12, -⟩ := tile_indices t
  show V m c main_v35 (((cfg0.win 5).blk t).view.emb (ix2 k n)) = _
  refine congrArg (V m c main_v35) (funext fun a => Fin.ext ?_)
  match a with
  | ⟨0, _⟩ => show win0_5.index t (0 : Fin 2) * 64 + 1 * k.val = k.val; omega
  | ⟨1, _⟩ => show win0_5.index t (1 : Fin 2) * 128 + 1 * n.val = n.val; omega

theorem bias3_block (c : Dev nD) (t : Fin cfg0.N) (n : Fin 128) :
    iblk m c 6 t (ix2 (0 : Fin 1) n) = V m c main_v38 (ix2 (0 : Fin 1) n) := by
  obtain ⟨-, -, -, -, -, -, -, -, -, -, -, -, -, e13, e14⟩ := tile_indices t
  show V m c main_v38 (((cfg0.win 6).blk t).view.emb (ix2 (0 : Fin 1) n)) = _
  refine congrArg (V m c main_v38) (funext fun a => Fin.ext ?_)
  match a with
  | ⟨0, _⟩ => show win0_6.index t (0 : Fin 2) * 1 + 1 * 0 = 0; omega
  | ⟨1, _⟩ => show win0_6.index t (1 : Fin 2) * 128 + 1 * n.val = n.val; omega

theorem column_kept (t : Fin cfg0.N) (y : S4096x128.Idx) : (y 1 : Fin 128) = (((cfg0.win 7).blk t).view.emb y) 1 := by
  obtain ⟨-, -, e2, -⟩ := tile_indices t
  exact Fin.ext (by show (y 1).val = win0_7.index t (1 : Fin 2) * 128 + 1 * (y 1).val; omega)

set_option maxHeartbeats 2000000 in
/-- What point `t` writes back is tile `t` of `allMessages`. -/
theorem tile_written (c : Dev nD) (t : Fin cfg0.N) :
    (dats m 0 c).flushed 7 t = ((cfg0.win 7).blk t).view.read (Elt Ideal) (allMessages m c) := by
  show (cfg0.win 7).cut (grid0.coords t) ((dats m 0 c).after 7 t) = _
  rw [after_7]
  unfold msg_block
  rw [View.canon_unit_zero origin]
  simp only [View.ld_unit_zero (S := S4096x384) origin, View.ld_unit_zero (S := S384x512) origin, View.ld_unit_zero (S := S1x512) origin, View.ld_unit_zero (S := S512x64) origin, View.ld_unit_zero (S := S1x64) origin, View.ld_unit_zero (S := S64x128) origin, View.ld_unit_zero (S := S1x128) origin]
  funext j
  show k0_pay1 (F := Ideal) (iblk m c 0 t) (iblk m c 1 t) (iblk m c 2 t) (iblk m c 3 t) (iblk m c 4 t) (iblk m c 5 t) (iblk m c 6 t) j
    = allMessages m c (((cfg0.win 7).blk t).view.emb j)
  refine (stored_at (iblk m c 0 t) (iblk m c 1 t) (iblk m c 2 t) (iblk m c 3 t) (iblk m c 4 t) (iblk m c 5 t) (iblk m c 6 t) j).trans ?_
  unfold allMessages
  simp only [feats_block m c t j, weights1_block m c t, bias1_block m c t, weights2_block m c t, bias2_block m c t, weights3_block m c t, bias3_block m c t]
  exact congrArg _ (column_kept t j)

/-- An index of the message matrix lies in point `t`'s tile iff each coordinate lies in the tile's range. -/
theorem mem_tile (t : Fin cfg0.N) (i : S303104x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v39).slice (win0_7.rect t)).set ↔ _
  rw [View.set_slice_whole, Rect.mem_set_unit]
  exact Iff.rfl

/-- Every index lies in the tile of the point numbered by its row divided by 4096. -/
theorem tiles_cover (i : S303104x128.Idx) :
    ∃ t : Fin cfg0.N, (cfg0.win 7).flush t = true ∧ i ∈ ((cfg0.win 7).blk t).view.set := by
  have hi0 : (i 0).val < 303104 := (i 0).isLt
  have hi1 : (i 1).val < 128 := (i 1).isLt
  obtain ⟨t, ht⟩ := tile_onto ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_tile]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 128 ≤ (i 1).val ∧ (i 1).val < win0_7.index t (1 : Fin 2) * 128 + 128; omega

/-- The message matrix after the region. -/
theorem messages_final (c : Dev nD) : (dats m 0 c).arrAt 7 cfg0.N = allMessages m c :=
  (dats m 0 c).arrAt_eq_of_cover 7 (allMessages m c) (fun t _ => tile_written m c t) (tiles_cover)

end Cert.KernelIdeal.Messages

end
-- ==== Proof.Entered.lean ====
/-
  What the region finds in its input arrays, as functions of the launch contents of the arguments.

  The host lines before the region compute: each weight matrix transposed to (input, output) layout; each bias as a
  one-row matrix; the centre column of the edge list; and the feature matrix — per edge the rows of its three end nodes
  side by side — padded below with zero rows to 303104 rows. Narrowing the node table and the weights to a shorter float
  format is the identity on the extended reals, so these are the reference's own stages, and a row of the padded
  feature matrix above row 300000 is the feature matrix's row.
-/
import proofs.«111660_j61254823575978_1_alg».proof.Proof.RegionIdeal
import proofs.«111660_j61254823575978_1_alg».proof.Proof.HostRun
import Idealize.ShloMosaic.Lib.StableHlo.Run
import Idealize.ShloMosaic.PureOps.Ideal
import Idealize.ShloMosaic.Lib.Pipeline.Value
import Idealize.ShloMosaic.Lib.ValueIdx
import Idealize.ShloMosaic.Lib.KernelVsHost

set_option maxRecDepth 16384

noncomputable section

namespace Cert.KernelIdeal.Entered

open Cert.KernelIdeal Cert.KernelIdeal.Gen Cert.KernelIdeal.Region
open Idealize.ShloMosaic Idealize.ShloMosaic.TcCoe Idealize.SL.Sem Idealize.ShloMosaic.StableHlo Idealize.ShloMosaic.ValueIdx

variable (m : (ℓ : Loc nD τ sig) → Buf (Elt Ideal) ℓ)

/-- A buffer the lines before the region computed: run the lines' composition and compare. -/
local macro "by_lines" : tactic => `(tactic| (
  dsimp only [V, V0]
  simp only [hostOps0, hostOps0_1, hostOps0_2, List.flatten_cons, List.flatten_nil, List.append_nil, List.cons_append, List.nil_append]
  after_results
  rfl))

theorem weights1 (c : Dev nD) : (V m c main_v31 : S384x512.Idx → Elt Ideal .bf16)
    = transpose S384x512 [1, 0] (m ((c : Thread nD τ).loc main_arg2)) transposes_S512x384_S384x512_1_0 := by by_lines
theorem weights2 (c : Dev nD) : (V m c main_v33 : S512x64.Idx → Elt Ideal .bf16)
    = transpose S512x64 [1, 0] (m ((c : Thread nD τ).loc main_arg4)) transposes_S64x512_S512x64_1_0 := by by_lines
theorem weights3 (c : Dev nD) : (V m c main_v35 : S64x128.Idx → Elt Ideal .bf16)
    = transpose S64x128 [1, 0] (m ((c : Thread nD τ).loc main_arg6)) transposes_S128x64_S64x128_1_0 := by by_lines
theorem bias1 (c : Dev nD) : (V m c main_v36 : S1x512.Idx → Elt Ideal .f32)
    = shapeCast S1x512 (m ((c : Thread nD τ).loc main_arg3)) shapeCasts_S512_S1x512 := by by_lines
theorem bias2 (c : Dev nD) : (V m c main_v37 : S1x64.Idx → Elt Ideal .f32)
    = shapeCast S1x64 (m ((c : Thread nD τ).loc main_arg5)) shapeCasts_S64_S1x64 := by by_lines
theorem bias3 (c : Dev nD) : (V m c main_v38 : S1x128.Idx → Elt Ideal .f32)
    = shapeCast S1x128 (m ((c : Thread nD τ).loc main_arg7)) shapeCasts_S128_S1x128 := by by_lines

/-- The centre column of the edge list. -/
theorem centre_col (c : Dev nD) : (V m c main_v1 : (⟨S300000, .i32⟩ : BufTy).Contents (Elt Ideal))
    = Cert.ReferenceIdeal.HostRun.centre (F := Ideal) (m ((c : Thread nD τ).loc main_arg1)) := by by_lines

set_option maxHeartbeats 4000000 in
/-- The padded feature matrix: the reference's feature matrix with 3104 rows of the padding value below it. -/
theorem feats_padded (c : Dev nD) : (V m c main_v29 : S303104x384.Idx → EReal)
    = pad (α := EReal) S303104x384 ![0, 0] ![3104, 0] ![0, 0]
        (Cert.ReferenceIdeal.HostRun.feats (F := Ideal) (m ((c : Thread nD τ).loc main_arg0)) (m ((c : Thread nD τ).loc main_arg1)))
        (sitofp (F := Ideal) .bf16 (constantI S_ 32 0#32))
        pads_S300000x384_S303104x384_031040_000 h_S_ := by by_lines

/-- Above row 300000 the padded feature matrix is the feature matrix. -/
theorem feats_row (c : Dev nD) (e : Fin 303104) (he : e.val < 300000) (k : Fin 384) :
    (V m c main_v29 : S303104x384.Idx → EReal) (ix2 e k)
      = Cert.ReferenceIdeal.HostRun.feats (F := Ideal) (m ((c : Thread nD τ).loc main_arg0)) (m ((c : Thread nD τ).loc main_arg1)) (ix2 (⟨e.val, he⟩ : Fin 300000) k) := by
  rw [feats_padded]
  exact pad_apply_of_inside ![0, 0] ![3104, 0] ![0, 0] _ _ pads_S300000x384_S303104x384_031040_000 h_S_ (ix2 e k)
    (ix2 (⟨e.val, he⟩ : Fin 300000) k) (fun a => by
      match a with
      | ⟨0, _⟩ => show e.val = 0 + e.val * (0 + 1); omega
      | ⟨1, _⟩ => show k.val = 0 + k.val * (0 + 1); omega)

end Cert.KernelIdeal.Entered

end
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«111660_j61254823575978_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.HostEntry.lean ====
/-
  The reference's message matrix, read at an entry.

  Each layer of the reference is the host's product of the previous layer with a transposed weight matrix, plus the
  bias broadcast over the edges, the first two clamped at zero. At the ideal instance the host's product read at (e, n)
  is the sum over k of row e of the left operand times column n of the right one; the transposed weights read at (k, n)
  are the weights at (n, k); a bias broadcast first to one row and then down the rows reads, at (e, n), the bias at n.
  So entry (e, c) of the message matrix is the perceptron of row e of the feature matrix.
-/
import proofs.«111660_j61254823575978_1_alg».proof.Proof.HostRun
import proofs.«111660_j61254823575978_1_alg».proof.Proof.Mlp
import proofs.«111660_j61254823575978_1_alg».proof.Proof.LibDotRead
import Idealize.ShloMosaic.Lib.Pipeline.Value
import Idealize.ShloMosaic.Lib.ValueIdx
import Idealize.ShloMosaic.Lib.ValueLayout

noncomputable section

open scoped BigOperators

namespace Cert.ReferenceIdeal.HostEntry

open Cert.ReferenceIdeal Cert.ReferenceIdeal.Gen Cert.ReferenceIdeal.HostRun Cert.Mlp
open Idealize.ShloMosaic Idealize.ShloMosaic.ValueIdx Idealize.ShloMosaic.MatmulRead

theorem rows_by_cols_1 : RowsByCols dot_S300000x384_S384x512_S300000x512_1_0_0_1_n_n := ⟨rfl, rfl, rfl, rfl, rfl, rfl⟩
theorem rows_by_cols_2 : RowsByCols dot_S300000x512_S512x64_S300000x64_1_0_0_1_n_n := ⟨rfl, rfl, rfl, rfl, rfl, rfl⟩
theorem rows_by_cols_3 : RowsByCols dot_S300000x64_S64x128_S300000x128_1_0_0_1_n_n := ⟨rfl, rfl, rfl, rfl, rfl, rfl⟩

/-- A bias of `b` entries broadcast to one row and then down `a` rows reads, at (e, n), the bias at n. -/
theorem bias_rows_apply {α : Type} {a b : ℕ} (hb : b ≠ 1) (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1])
    (e : Fin a) (n : Fin b) :
    broadcastInDim ⟨2, ![a, b]⟩ ![0, 1] h2 (broadcastInDim ⟨2, ![1, b]⟩ ![1] h1 x) (ix2 e n) = x (ix1 n) := by
  rw [broadcastInDim_apply ![0, 1] h2 _ (ix2 e n) (ix2 (0 : Fin 1) n) (fun ax => by
    match ax with
    | ⟨0, _⟩ => show (0 : ℕ) = if (1 : ℕ) = 1 then 0 else e.val; rw [if_pos rfl]
    | ⟨1, _⟩ => show n.val = if b = 1 then 0 else n.val; rw [if_neg hb])]
  exact broadcastInDim_apply ![1] h1 x (ix2 (0 : Fin 1) n) (ix1 n) (fun ax => by
    match ax with
    | ⟨0, _⟩ => show n.val = if b = 1 then 0 else n.val; rw [if_neg hb])

/-- The first hidden layer at (e, n). -/
theorem hidden1_entry (f : FVec Ideal S300000x384 .f32) (x2 : FVec Ideal S512x384 .f32) (x3 : FVec Ideal S512 .f32)
    (e : Fin 300000) (n : Fin 512) :
    hidden1 (F := Ideal) f x2 x3 (ix2 e n)
      = clampedLayer zeroWord (fun k => f (ix2 e k)) (fun k n => x2 (ix2 n k)) (fun n => x3 (ix1 n)) n := by
  unfold hidden1
  show max (Host.dotGeneral dot_S300000x384_S384x512_S300000x512_1_0_0_1_n_n none f (transpose S384x512 [1, 0] x2 transposes_S512x384_S384x512_1_0) (ix2 e n)
      + broadcastInDim S300000x512 ![0, 1] bcast_S1x512_S300000x512_0_1 (broadcastInDim S1x512 ![1] bcast_S512_S1x512_1 x3) (ix2 e n)) zeroWord = _
  rw [hostDot_ix2 rows_by_cols_1 rfl rfl, bias_rows_apply (by decide)]
  unfold clampedLayer
  congr 2
  exact Finset.sum_congr rfl fun k _ => by rw [transpose_ix2_apply]

/-- The second hidden layer at (e, n), from any first layer. -/
theorem hidden2_entry (h : FVec Ideal S300000x512 .f32) (x4 : FVec Ideal S64x512 .f32) (x5 : FVec Ideal S64 .f32)
    (e : Fin 300000) (n : Fin 64) :
    hidden2 (F := Ideal) h x4 x5 (ix2 e n)
      = clampedLayer zeroWord (fun k => h (ix2 e k)) (fun k n => x4 (ix2 n k)) (fun n => x5 (ix1 n)) n := by
  unfold hidden2
  show max (Host.dotGeneral dot_S300000x512_S512x64_S300000x64_1_0_0_1_n_n none h (transpose S512x64 [1, 0] x4 transposes_S64x512_S512x64_1_0) (ix2 e n)
      + broadcastInDim S300000x64 ![0, 1] bcast_S1x64_S300000x64_0_1 (broadcastInDim S1x64 ![1] bcast_S64_S1x64_1 x5) (ix2 e n)) zeroWord = _
  rw [hostDot_ix2 rows_by_cols_2 rfl rfl, bias_rows_apply (by decide)]
  unfold clampedLayer
  congr 2
  exact Finset.sum_congr rfl fun k _ => by rw [transpose_ix2_apply]

/-- The message at (e, c), from any second layer. -/
theorem message_entry (h : FVec Ideal S300000x64 .f32) (x6 : FVec Ideal S128x64 .f32) (x7 : FVec Ideal S128 .f32)
    (e : Fin 300000) (c : Fin 128) :
    messages (F := Ideal) h x6 x7 (ix2 e c)
      = affineLayer (fun k => h (ix2 e k)) (fun k n => x6 (ix2 n k)) (fun n => x7 (ix1 n)) c := by
  unfold messages
  show Host.dotGeneral dot_S300000x64_S64x128_S300000x128_1_0_0_1_n_n none h (transpose S64x128 [1, 0] x6 transposes_S128x64_S64x128_1_0) (ix2 e c)
      + broadcastInDim S300000x128 ![0, 1] bcast_S1x128_S300000x128_0_1 (broadcastInDim S1x128 ![1] bcast_S128_S1x128_1 x7) (ix2 e c) = _
  rw [hostDot_ix2 rows_by_cols_3 rfl rfl, bias_rows_apply (by decide)]
  unfold affineLayer
  congr 1
  exact Finset.sum_congr rfl fun k _ => by rw [transpose_ix2_apply]

/-- Entry (e, c) of the reference's message matrix is the perceptron of row e of the feature matrix. -/
theorem messages_entry (f : FVec Ideal S300000x384 .f32) (x2 : FVec Ideal S512x384 .f32) (x3 : FVec Ideal S512 .f32)
    (x4 : FVec Ideal S64x512 .f32) (x5 : FVec Ideal S64 .f32) (x6 : FVec Ideal S128x64 .f32) (x7 : FVec Ideal S128 .f32)
    (e : Fin 300000) (c : Fin 128) :
    messages (F := Ideal) (hidden2 (hidden1 f x2 x3) x4 x5) x6 x7 (ix2 e c)
      = perceptron zeroWord (fun k => f (ix2 e k)) (fun k n => x2 (ix2 n k)) (fun n => x3 (ix1 n))
          (fun k n => x4 (ix2 n k)) (fun n => x5 (ix1 n)) (fun k n => x6 (ix2 n k)) (fun n => x7 (ix1 n)) c := by
  unfold perceptron
  refine (message_entry _ x6 x7 e c).trans ?_
  refine congrArg (fun g => affineLayer g (fun k n => x6 (ix2 n k)) (fun n => x7 (ix1 n)) c) (funext fun k3 => ?_)
  refine (hidden2_entry _ x4 x5 e k3).trans ?_
  refine congrArg (fun g => clampedLayer zeroWord g (fun k n => x4 (ix2 n k)) (fun n => x5 (ix1 n)) k3) (funext fun k2 => ?_)
  exact hidden1_entry f x2 x3 e k2

end Cert.ReferenceIdeal.HostEntry

end
-- ==== Proof.Result.lean ====
/-
  The idealized program's result is the reference's function of the arguments.

  After the region, the host lines cut the message matrix back to its 300000 real edges and pool it: exactly the
  reference's pooling, of the same centre column and the same node table. So it is enough that the cut message matrix
  IS the reference's message matrix. Entry (e, c) of either is the perceptron of feature row e: on the kernel side by
  the tiles written back (row e < 300000 of the padded feature matrix is the feature matrix's row e, the weights are
  the transposed weights and the one-row biases read the biases), on the reference side by reading its three host
  products. No algebraic law is used beyond reading each operation at an entry, so the inputs need not be finite.
-/
import proofs.«111660_j61254823575978_1_alg».proof.Proof.RegionIdeal
import proofs.«111660_j61254823575978_1_alg».proof.Proof.Messages
import proofs.«111660_j61254823575978_1_alg».proof.Proof.Entered
import proofs.«111660_j61254823575978_1_alg».proof.Proof.HostRun
import proofs.«111660_j61254823575978_1_alg».proof.Proof.HostEntry
import Idealize.ShloMosaic.Lib.ValueLayout

set_option maxRecDepth 16384

noncomputable section

namespace Cert.KernelIdeal.Result

open Cert.KernelIdeal Cert.KernelIdeal.Gen Cert.KernelIdeal.Region Cert.KernelIdeal.Messages Cert.KernelIdeal.Entered Cert.Mlp
open Idealize.ShloMosaic Idealize.ShloMosaic.TcCoe Idealize.SL.Sem Idealize.ShloMosaic.StableHlo Idealize.ShloMosaic.ValueIdx
open Cert.ReferenceIdeal.HostRun (centre feats hidden1 hidden2 messages pooled result)

variable (m : (ℓ : Loc nD τ sig) → Buf (Elt Ideal) ℓ) (ρ : Dev nD → PrngReg)

/-- The message array the region leaves, as a plain function of its two coordinates. -/
def msgArray (c : Dev nD) : S303104x128.Idx → Elt Ideal .f32 := (dats m 0 c).arrAt 7 cfg0.N

theorem msgArray_eq (c : Dev nD) : msgArray m c = allMessages m c := messages_final m c

section Pooling

variable {F : FTy → Type} [FloatOps F]

/-- How many messages each node receives, from the centre column (the kernel's spelling). -/
def receivedOf (ctr : (⟨S300000, .i32⟩ : BufTy).Contents (Elt F)) : (⟨S100000, .f32⟩ : BufTy).Contents (Elt F) :=
  Host.scatterAdd scatter_S100000_S300000x1_S300000_n_0_0_1
    (broadcastInDim S100000 ![] bcast_S_S100000 (constant S_ .f32 0x00000000#32))
    (broadcastInDim S300000x1 ![0] bcast_S300000_S300000x1_0 ctr)
    (broadcastInDim S300000 ![] bcast_S_S300000 (constant S_ .f32 0x3F800000#32))

/-- The pooling of a message matrix over a centre column (the kernel's spelling). -/
def pooledOf (msg : (⟨S300000x128, .f32⟩ : BufTy).Contents (Elt F)) (x0 : (⟨S100000x128, .f32⟩ : BufTy).Contents (Elt F)) (ctr : (⟨S300000, .i32⟩ : BufTy).Contents (Elt F)) : (⟨S100000x128, .f32⟩ : BufTy).Contents (Elt F) :=
  select
    (broadcastInDim S100000x128 ![0, 1] bcast_S100000x1_S100000x128_0_1
      (cmpf .ogt (broadcastInDim S100000x1 ![0] bcast_S100000_S100000x1_0 (receivedOf ctr))
        (broadcastInDim S100000x1 ![] bcast_S_S100000x1 (constant S_ .f32 0x00000000#32))))
    (Host.divf
      (Host.scatterAdd scatter_S100000x128_S300000x1_S300000x128_1_0_0_1
        (broadcastInDim S100000x128 ![] bcast_S_S100000x128 (constant S_ .f32 0x00000000#32))
        (broadcastInDim S300000x1 ![0] bcast_S300000_S300000x1_0 ctr) msg)
      (broadcastInDim S100000x128 ![0, 1] bcast_S100000x1_S100000x128_0_1
        (broadcastInDim S100000x1 ![0] bcast_S100000_S100000x1_0
          (maximumf (receivedOf ctr) (broadcastInDim S100000 ![] bcast_S_S100000 (constant S_ .f32 0x3F800000#32))))))
    x0

end Pooling

/-- The two spellings of the pooling are one function: the programs print the same operations. -/
theorem pooledOf_centre (msg : (⟨S300000x128, .f32⟩ : BufTy).Contents (Elt Ideal)) (x0 : (⟨S100000x128, .f32⟩ : BufTy).Contents (Elt Ideal)) (x1 : (⟨S300000x3, .i32⟩ : BufTy).Contents (Elt Ideal)) :
    pooledOf (F := Ideal) msg x0 (centre (F := Ideal) x1) = pooled (F := Ideal) msg x0 x1 := rfl

set_option maxRecDepth 8192 in
set_option maxHeartbeats 16000000 in
/-- The lines after the region, from ANY contents `W` of the buffers: the result buffer ends at the pooling of the message
    array's first 300000 rows, over the centre column and the node table that `W` holds. -/
theorem tail_of {F : FTy → Type} [FloatOps F] (W : Valuation τ sig (Elt F)) :
    StableHlo.after (List.flatten [hostOps1, hostOps1_1]) W (Proc.devRef .tc main_v56)
      = pooledOf (F := F)
          (extractStridedSlice S300000x128 ![0, 0] (W (Proc.devRef .tc main_v39)) slices_S303104x128_S300000x128_0_0)
          (W (Proc.devRef .tc main_arg0)) (W (Proc.devRef .tc main_v1)) := by
  simp only [hostOps1, hostOps1_1, List.flatten_cons, List.flatten_nil, List.append_nil, List.cons_append, List.nil_append]
  after_results_simp
  rfl

set_option maxHeartbeats 4000000 in
/-- The lines after the region pool the message array cut back to the real edges. -/
theorem tail_pools (c : Dev nD) :
    Pipeline.afterTail₀ cfgs (dats m) 0 (V0 m) [hostOps1, hostOps1_1] c main_v56
      = pooled (F := Ideal)
          (extractStridedSlice S300000x128 ![0, 0] (msgArray m c) slices_S303104x128_S300000x128_0_0)
          (m ((c : Thread nD τ).loc main_arg0)) (m ((c : Thread nD τ).loc main_arg1)) := by
  have h39 : Pipeline.withArrays (cfgs 0).spec c (V0 m c) (fun w => (dats m 0 c).arrAt w (cfgs 0).N) (Proc.devRef .tc main_v39) = msgArray m c :=
    Pipeline.withArrays_arr spec0 launch0.win.arr_inj c _ _ 7
  have h1 : Pipeline.withArrays (cfgs 0).spec c (V0 m c) (fun w => (dats m 0 c).arrAt w (cfgs 0).N) (Proc.devRef .tc main_v1) = centre (F := Ideal) (m ((c : Thread nD τ).loc main_arg1)) :=
    (Pipeline.withArrays_of_ne _ c (V0 m c) _ main_v1 (by exact (by decide : ∀ w, Pipeline.arrRef spec0 w ≠ main_v1))).trans (centre_col m c)
  have h0 : Pipeline.withArrays (cfgs 0).spec c (V0 m c) (fun w => (dats m 0 c).arrAt w (cfgs 0).N) (Proc.devRef .tc main_arg0) = (m ((c : Thread nD τ).loc main_arg0)) :=
    (Pipeline.withArrays_of_ne _ c (V0 m c) _ main_arg0 (by exact (by decide : ∀ w, Pipeline.arrRef spec0 w ≠ main_arg0))).trans (V_main_arg0 m c)
  unfold Pipeline.afterTail₀
  refine (tail_of (Pipeline.withArrays (cfgs 0).spec c (V0 m c) (fun w => (dats m 0 c).arrAt w (cfgs 0).N))).trans ?_
  rw [h39, h1, h0]
  exact pooledOf_centre _ _ _

/-- The message matrix cut back to the real edges is the reference's message matrix. -/
theorem cut_messages (c : Dev nD) :
    extractStridedSlice S300000x128 ![0, 0] (msgArray m c) slices_S303104x128_S300000x128_0_0
      = messages (F := Ideal) (hidden2 (hidden1 (feats (m ((c : Thread nD τ).loc main_arg0)) (m ((c : Thread nD τ).loc main_arg1))) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7)) := by
  rw [msgArray_eq]
  funext j
  obtain ⟨e, q, rfl⟩ : ∃ (e : Fin 300000) (q : Fin 128), j = ix2 e q := ⟨j 0, j 1, eq_ix2 j⟩
  have he : e.val < 303104 := by have := e.isLt; omega
  refine (slice2_axis0_apply 0 (allMessages m c) slices_S303104x128_S300000x128_0_0 e q ⟨e.val, he⟩ (by simp)).trans ?_
  refine Eq.trans ?_ (Cert.ReferenceIdeal.HostEntry.messages_entry _ _ _ _ _ _ _ e q).symm
  unfold allMessages
  have f0 : ∀ k : Fin 384, (V m c main_v29 : S303104x384.Idx → EReal) (ix2 (⟨e.val, he⟩ : Fin 303104) k)
      = feats (F := Ideal) (m ((c : Thread nD τ).loc main_arg0)) (m ((c : Thread nD τ).loc main_arg1)) (ix2 e k) := fun k => feats_row m c ⟨e.val, he⟩ e.isLt k
  have f1 : ∀ (k : Fin 384) (n : Fin 512), (V m c main_v31 : S384x512.Idx → Elt Ideal .bf16) (ix2 k n) = (m ((c : Thread nD τ).loc main_arg2)) (ix2 n k) := fun k n => by
    rw [weights1]; exact transpose_ix2_apply _ _ k n
  have f2 : ∀ n : Fin 512, (V m c main_v36 : S1x512.Idx → Elt Ideal .f32) (ix2 (0 : Fin 1) n) = (m ((c : Thread nD τ).loc main_arg3)) (ix1 n) := fun n => by
    rw [bias1]; exact shapeCast_a_1a_apply _ _ 0 n
  have f3 : ∀ (k : Fin 512) (n : Fin 64), (V m c main_v33 : S512x64.Idx → Elt Ideal .bf16) (ix2 k n) = (m ((c : Thread nD τ).loc main_arg4)) (ix2 n k) := fun k n => by
    rw [weights2]; exact transpose_ix2_apply _ _ k n
  have f4 : ∀ n : Fin 64, (V m c main_v37 : S1x64.Idx → Elt Ideal .f32) (ix2 (0 : Fin 1) n) = (m ((c : Thread nD τ).loc main_arg5)) (ix1 n) := fun n => by
    rw [bias2]; exact shapeCast_a_1a_apply _ _ 0 n
  have f5 : ∀ (k : Fin 64) (n : Fin 128), (V m c main_v35 : S64x128.Idx → Elt Ideal .bf16) (ix2 k n) = (m ((c : Thread nD τ).loc main_arg6)) (ix2 n k) := fun k n => by
    rw [weights3]; exact transpose_ix2_apply _ _ k n
  have f6 : ∀ n : Fin 128, (V m c main_v38 : S1x128.Idx → Elt Ideal .f32) (ix2 (0 : Fin 1) n) = (m ((c : Thread nD τ).loc main_arg7)) (ix1 n) := fun n => by
    rw [bias3]; exact shapeCast_a_1a_apply _ _ 0 n
  show perceptron zeroWord (fun k => (V m c main_v29 : S303104x384.Idx → EReal) (ix2 (⟨e.val, he⟩ : Fin 303104) k))
      (fun k n => (V m c main_v31 : S384x512.Idx → Elt Ideal .bf16) (ix2 k n)) (fun n => (V m c main_v36 : S1x512.Idx → Elt Ideal .f32) (ix2 (0 : Fin 1) n))
      (fun k n => (V m c main_v33 : S512x64.Idx → Elt Ideal .bf16) (ix2 k n)) (fun n => (V m c main_v37 : S1x64.Idx → Elt Ideal .f32) (ix2 (0 : Fin 1) n))
      (fun k n => (V m c main_v35 : S64x128.Idx → Elt Ideal .bf16) (ix2 k n)) (fun n => (V m c main_v38 : S1x128.Idx → Elt Ideal .f32) (ix2 (0 : Fin 1) n)) q = _
  simp only [f0, f1, f2, f3, f4, f5, f6]

/-- The idealized program's run: it terminates without a fault with its result at the reference's function of the
    launch contents of the arguments, and the arguments unchanged. -/
theorem run : θ_run defs (onTc (τ := τ) (main (F := Ideal))) ⟨m, fun _ => 0, ρ⟩ (fun r => ∀ c : Dev nD,
      r.2.mem ((c.tc : Thread nD τ).loc main_v56) = result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      (((h c).2 main_v56 (Pipeline.mem_restRefs_of main_v56 (by decide) (by decide))).trans (tail_pools m c)).trans
        (by rw [cut_messages]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_named m ρ)

end Cert.KernelIdeal.Result

end
-- ==== Proof.lean ====
/-
  Message passing over a graph: the tiled kernel against its plain reference, on the extended reals.

  Both programs take a node table x (100000 rows of 128), an edge list of 300000 triples of node numbers, and the
  weights and biases of a three-layer perceptron 384 → 512 → 64 → 128. For every edge they put the rows of its three end
  nodes side by side, run the perceptron (a clamp at zero after each of the first two layers), add the edge's message into
  the row of its central node, divide each node's sum by the number of messages it received (at least one), and leave a
  node that received none at its own row.

  The kernel pads the edge axis to 74 tiles of 4096 edges and runs the perceptron tile by tile in one pipelined region,
  with the weights resident; the gathers before it and the pooling after it are the reference's own host operations. On
  the extended reals narrowing a float is the identity, a matrix product accumulated from zero is the plain sum of
  products, the tiles cover every edge once, and the 3104 padding rows are cut away before the pooling: the two results
  are the same function of the arguments, entry by entry, and no law is used that would need the entries to be finite.

  The claims: each program terminates without a fault and leaves its arguments unchanged (for the kernel, at the
  word-level instance and at the ideal one: the region's body overwrites its whole output block and nothing else);
  the ideal pass rewrote no operation; and the two idealized programs end with equal results.
-/
import proofs.«111660_j61254823575978_1_alg».proof.Defs
import proofs.«111660_j61254823575978_1_alg».proof.Proof.Gen.Kernel
import proofs.«111660_j61254823575978_1_alg».proof.Proof.Gen.KernelIdeal
import proofs.«111660_j61254823575978_1_alg».proof.Proof.Gen.ReferenceIdeal
import proofs.«111660_j61254823575978_1_alg».proof.Proof.Gen.Pre_finite_inputs
import proofs.«111660_j61254823575978_1_alg».proof.Proof.RegionBits
import proofs.«111660_j61254823575978_1_alg».proof.Proof.RegionIdeal
import proofs.«111660_j61254823575978_1_alg».proof.Proof.HostRun
import proofs.«111660_j61254823575978_1_alg».proof.Proof.Result
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Region.frame (F := Bits) m ρ

/-- So does its idealization. -/
theorem frame_kernel_ideal : Cert.frame_KernelIdeal := fun m ρ _ => Cert.KernelIdeal.Region.frame (F := Ideal) m ρ

/-- The reference is host lines only: its run, with the result forgotten. -/
theorem frame_reference : Cert.frame_ReferenceIdeal := fun m ρ _ =>
  (θ_run Cert.ReferenceIdeal.defs _ _).mono (fun _ h c => (h c).2) (Cert.ReferenceIdeal.HostRun.run (F := Ideal) m ρ)

/-- The ideal pass rewrote nothing. -/
theorem preserves : Cert.preserves_Kernel_KernelIdeal := trivial

/-- Both idealized programs end at the reference's function of the arguments, which agree. -/
theorem algebraic : Cert.algebraic_KernelIdeal_ReferenceIdeal := by
  intro m ρ m' ρ' _ hagree
  refine ⟨fun c => Cert.ReferenceIdeal.HostRun.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Result.run m ρ, ?_⟩
  refine (θ_run Cert.ReferenceIdeal.defs _ _).mono (fun _ h c => ⟨(h c).1.trans ?_, (h c).2⟩)
    (Cert.ReferenceIdeal.HostRun.run (F := Ideal) m' ρ')
  obtain ⟨a0, a1, a2, a3, a4, a5, a6, a7⟩ := hagree c
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
